-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x32 : Shape := ⟨2, ![512, 32]⟩
abbrev S32 : Shape := ⟨1, ![32]⟩
abbrev S32x16 : Shape := ⟨2, ![32, 16]⟩
abbrev S16 : Shape := ⟨1, ![16]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x32 : S_.BroadcastsInDim S512x32 (![] : Fin 0 → Fin S512x32.rank)
  reducesTo_S512x32_S_d0_1 : S512x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x32 .f32) (main_arg3 : FVec F S32 .f32) (main_arg4 : FVec F S32x16 .f32) (main_arg5 : FVec F S16 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x32 .f32 := Host.absf main_arg2
  let main_cst_0 : FVec F S_ .f32 := constant S_ .f32 0x7F800000#32
  let main_v5 : FVec F S512x32 .f32 := broadcastInDim S512x32 ![] bcast_S_S512x32 main_cst_0
  let main_v6 : IVec S512x32 1 := cmpf .olt main_v4 main_v5
  let main_c_1 : IVec S_ 1 := constantI S_ 1 1#1
  let main_v7 : IVec S_ 1 := (fun x v => Host.reduce IntOp.andi x v reducesTo_S512x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x16 .f32 := Host.absf main_arg4
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x32 : Shape := ⟨2, ![512, 32]⟩
abbrev S32 : Shape := ⟨1, ![32]⟩
abbrev S32x16 : Shape := ⟨2, ![32, 16]⟩
abbrev S16 : Shape := ⟨1, ![16]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x32 : Shape := ⟨2, ![100000, 32]⟩
abbrev S2000x512 : Shape := ⟨2, ![2000, 512]⟩
abbrev S2000x32 : Shape := ⟨2, ![2000, 32]⟩
abbrev S3200000x32 : Shape := ⟨2, ![3200000, 32]⟩
abbrev S100000x1 : Shape := ⟨2, ![100000, 1]⟩
abbrev S1x32 : Shape := ⟨2, ![1, 32]⟩
abbrev S100000x16 : Shape := ⟨2, ![100000, 16]⟩
abbrev S2000x16 : Shape := ⟨2, ![2000, 16]⟩
abbrev S3200000x16 : Shape := ⟨2, ![3200000, 16]⟩
abbrev S1x16 : Shape := ⟨2, ![1, 16]⟩
abbrev S2000 : Shape := ⟨1, ![2000]⟩
abbrev S2000x1 : Shape := ⟨2, ![2000, 1]⟩

abbrev nBuf : Space → Nat
  | .hbm => 86
  | .vmem => 20
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S_, .f32⟩
  | .hbm, ⟨11, _⟩ => ⟨S3200000, .f32⟩
  | .hbm, ⟨12, _⟩ => ⟨S_, .f32⟩
  | .hbm, ⟨13, _⟩ => ⟨S100000, .f32⟩
  | .hbm, ⟨14, _⟩ => ⟨S3200000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S3200000, .i32⟩
  | .hbm, ⟨22, _⟩ => ⟨S3200000, .i1⟩
  | .hbm, ⟨23, _⟩ => ⟨S_, .i32⟩
  | .hbm, ⟨24, _⟩ => ⟨S3200000, .i32⟩
  | .hbm, ⟨25, _⟩ => ⟨S3200000, .i32⟩
  | .hbm, ⟨26, _⟩ => ⟨S3200000, .i32⟩
  | .hbm, ⟨27, _⟩ => ⟨S3200000x1, .i32⟩
  | .hbm, ⟨28, _⟩ => ⟨S3200000, .f32⟩
  | .hbm, ⟨29, _⟩ => ⟨S_, .i32⟩
  | .hbm, ⟨30, _⟩ => ⟨S3200000, .i32⟩
  | .hbm, ⟨31, _⟩ => ⟨S3200000, .i1⟩
  | .hbm, ⟨32, _⟩ => ⟨S_, .i32⟩
  | .hbm, ⟨33, _⟩ => ⟨S3200000, .i32⟩
  | .hbm, ⟨34, _⟩ => ⟨S3200000, .i32⟩
  | .hbm, ⟨35, _⟩ => ⟨S3200000, .i32⟩
  | .hbm, ⟨36, _⟩ => ⟨S3200000x1, .i32⟩
  | .hbm, ⟨37, _⟩ => ⟨S3200000, .f32⟩
  | .hbm, ⟨38, _⟩ => ⟨S3200000, .f32⟩
  | .hbm, ⟨39, _⟩ => ⟨S100000, .f32⟩
  | .hbm, ⟨40, _⟩ => ⟨S100000x32, .f32⟩
  | .hbm, ⟨41, _⟩ => ⟨S_, .i32⟩
  | .hbm, ⟨42, _⟩ => ⟨S3200000, .i32⟩
  | .hbm, ⟨43, _⟩ => ⟨S3200000, .i1⟩
  | .hbm, ⟨44, _⟩ => ⟨S_, .i32⟩
  | .hbm, ⟨45, _⟩ => ⟨S3200000, .i32⟩
  | .hbm, ⟨46, _⟩ => ⟨S3200000, .i32⟩
  | .hbm, ⟨47, _⟩ => ⟨S3200000, .i32⟩
  | .hbm, ⟨48, _⟩ => ⟨S3200000x1, .i32⟩
  | .hbm, ⟨49, _⟩ => ⟨S3200000x32, .f32⟩
  | .hbm, ⟨50, _⟩ => ⟨S3200000x1, .f32⟩
  | .hbm, ⟨51, _⟩ => ⟨S3200000x32, .f32⟩
  | .hbm, ⟨52, _⟩ => ⟨S3200000x32, .f32⟩
  | .hbm, ⟨53, _⟩ => ⟨S_, .f32⟩
  | .hbm, ⟨54, _⟩ => ⟨S100000x32, .f32⟩
  | .hbm, ⟨55, _⟩ => ⟨S3200000x1, .i32⟩
  | .hbm, ⟨56, _⟩ => ⟨S100000x32, .f32⟩
  | .hbm, ⟨57, _⟩ => ⟨S100000x1, .f32⟩
  | .hbm, ⟨58, _⟩ => ⟨S100000x32, .f32⟩
  | .hbm, ⟨59, _⟩ => ⟨S100000x32, .f32⟩
  | .hbm, ⟨60, _⟩ => ⟨S100000x32, .f32⟩
  | .hbm, ⟨61, _⟩ => ⟨S1x32, .f32⟩
  | .hbm, ⟨62, _⟩ => ⟨S100000x32, .f32⟩
  | .hbm, ⟨63, _⟩ => ⟨S100000x16, .f32⟩
  | .hbm, ⟨64, _⟩ => ⟨S_, .i32⟩
  | .hbm, ⟨65, _⟩ => ⟨S3200000, .i32⟩
  | .hbm, ⟨66, _⟩ => ⟨S3200000, .i1⟩
  | .hbm, ⟨67, _⟩ => ⟨S_, .i32⟩
  | .hbm, ⟨68, _⟩ => ⟨S3200000, .i32⟩
  | .hbm, ⟨69, _⟩ => ⟨S3200000, .i32⟩
  | .hbm, ⟨70, _⟩ => ⟨S3200000, .i32⟩
  | .hbm, ⟨71, _⟩ => ⟨S3200000x1, .i32⟩
  | .hbm, ⟨72, _⟩ => ⟨S3200000x16, .f32⟩
  | .hbm, ⟨73, _⟩ => ⟨S3200000x1, .f32⟩
  | .hbm, ⟨74, _⟩ => ⟨S3200000x16, .f32⟩
  | .hbm, ⟨75, _⟩ => ⟨S3200000x16, .f32⟩
  | .hbm, ⟨76, _⟩ => ⟨S_, .f32⟩
  | .hbm, ⟨77, _⟩ => ⟨S100000x16, .f32⟩
  | .hbm, ⟨78, _⟩ => ⟨S3200000x1, .i32⟩
  | .hbm, ⟨79, _⟩ => ⟨S100000x16, .f32⟩
  | .hbm, ⟨80, _⟩ => ⟨S100000x1, .f32⟩
  | .hbm, ⟨81, _⟩ => ⟨S100000x16, .f32⟩
  | .hbm, ⟨82, _⟩ => ⟨S100000x16, .f32⟩
  | .hbm, ⟨83, _⟩ => ⟨S100000x16, .f32⟩
  | .hbm, ⟨84, _⟩ => ⟨S1x16, .f32⟩
  | .hbm, ⟨85, _⟩ => ⟨S100000x16, .f32⟩
  | .local _ .vmem, ⟨0, _⟩ => ⟨S2000x512, .f32⟩
  | .local _ .vmem, ⟨1, _⟩ => ⟨S2000x512, .f32⟩
  | .local _ .vmem, ⟨2, _⟩ => ⟨S512x32, .f32⟩
  | .local _ .vmem, ⟨3, _⟩ => ⟨S2000x32, .f32⟩
  | .local _ .vmem, ⟨4, _⟩ => ⟨S2000x32, .f32⟩
  | .local _ .vmem, ⟨5, _⟩ => ⟨S2000x32, .f32⟩
  | .local _ .vmem, ⟨6, _⟩ => ⟨S2000x32, .f32⟩
  | .local _ .vmem, ⟨7, _⟩ => ⟨S1x32, .f32⟩
  | .local _ .vmem, ⟨8, _⟩ => ⟨S2000x32, .f32⟩
  | .local _ .vmem, ⟨9, _⟩ => ⟨S2000x32, .f32⟩
  | .local _ .vmem, ⟨10, _⟩ => ⟨S2000x32, .f32⟩
  | .local _ .vmem, ⟨11, _⟩ => ⟨S2000x32, .f32⟩
  | .local _ .vmem, ⟨12, _⟩ => ⟨S32x16, .f32⟩
  | .local _ .vmem, ⟨13, _⟩ => ⟨S2000x16, .f32⟩
  | .local _ .vmem, ⟨14, _⟩ => ⟨S2000x16, .f32⟩
  | .local _ .vmem, ⟨15, _⟩ => ⟨S2000x16, .f32⟩
  | .local _ .vmem, ⟨16, _⟩ => ⟨S2000x16, .f32⟩
  | .local _ .vmem, ⟨17, _⟩ => ⟨S1x16, .f32⟩
  | .local _ .vmem, ⟨18, _⟩ => ⟨S2000x16, .f32⟩
  | .local _ .vmem, ⟨19, _⟩ => ⟨S2000x16, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_c_8 : Ref sig .tc := ⟨.hbm, 64, rfl⟩
abbrev main_v48 : Ref sig .tc := ⟨.hbm, 65, rfl⟩
abbrev main_v49 : Ref sig .tc := ⟨.hbm, 66, rfl⟩
abbrev main_c_9 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_10 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x32_S512x32_0_0 : ∀ a, (![0, 0] : Fin 2 → Nat) a + S512x32.size a ≤ S512x32.size a
  h_S512x32 : 0 < S512x32.numel
  inb_S2000x32_S2000x32_0_0 : ∀ a, (![0, 0] : Fin 2 → Nat) a + S2000x32.size a ≤ S2000x32.size a
  h_S2000x32 : 0 < S2000x32.numel
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  shapeCasts_S32_S1x32 : S32.ShapeCasts S1x32
  shapeCasts_S2000x32_S2000x32 : S2000x32.ShapeCasts S2000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S32x16_S32x16_0_0 : ∀ a, (![0, 0] : Fin 2 → Nat) a + S32x16.size a ≤ S32x16.size a
  h_S32x16 : 0 < S32x16.numel
  inb_S2000x16_S2000x16_0_0 : ∀ a, (![0, 0] : Fin 2 → Nat) a + S2000x16.size a ≤ S2000x16.size a
  h_S2000x16 : 0 < S2000x16.numel
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  shapeCasts_S16_S1x16 : S16.ShapeCasts S1x16
  shapeCasts_S2000x16_S2000x16 : S2000x16.ShapeCasts S2000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  reduces_S2000x16_S2000 : S2000x16.Reduces [1] S2000
  shapeCasts_S2000_S2000x1 : S2000.ShapeCasts S2000x1
  broadcasts_S2000x1_S2000x16 : S2000x1.Broadcasts S2000x16
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S2000x512_S512x32_S2000x32_1_0_0_1_n_n_wf : DotDims.WF S2000x512 S512x32 S2000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S2000x32_S32x16_S2000x16_1_0_0_1_n_n_wf : DotDims.WF S2000x32 S32x16 S2000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S512x32.size a
  hwx0_1 : ∀ i : grid0.Coords, EltTy.bits .f32 = 32 ∨ (Rect.block (s := S512x32) S512x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x32.size a ≤ S100000x32.size a
  hwx0_2 : ∀ i : grid0.Coords, EltTy.bits .f32 = 32 ∨ (Rect.block (s := S100000x32) S2000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x32.size a ≤ S100000x32.size a
  hwx1_0 : ∀ i : grid1.Coords, EltTy.bits .f32 = 32 ∨ (Rect.block (s := S100000x32) S2000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x32.size a ≤ S100000x32.size a
  hwx1_2 : ∀ i : grid1.Coords, EltTy.bits .f32 = 32 ∨ (Rect.block (s := S100000x32) S2000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x32.size a ≤ S100000x32.size a
  hwx2_0 : ∀ i : grid2.Coords, EltTy.bits .f32 = 32 ∨ (Rect.block (s := S100000x32) S2000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x16.size a ≤ S32x16.size a
  hwx2_1 : ∀ i : grid2.Coords, EltTy.bits .f32 = 32 ∨ (Rect.block (s := S32x16) S32x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x16.size a ≤ S100000x16.size a
  hwx2_2 : ∀ i : grid2.Coords, EltTy.bits .f32 = 32 ∨ (Rect.block (s := S100000x16) S2000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x16.size a ≤ S100000x16.size a
  hwx3_0 : ∀ i : grid3.Coords, EltTy.bits .f32 = 32 ∨ (Rect.block (s := S100000x16) S2000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x16.size a ≤ S1x16.size a
  hwx3_1 : ∀ i : grid3.Coords, EltTy.bits .f32 = 32 ∨ (Rect.block (s := S1x16) S1x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x16.size a ≤ S100000x16.size a
  hwx3_2 : ∀ i : grid3.Coords, EltTy.bits .f32 = 32 ∨ (Rect.block (s := S100000x16) S2000x16.size (cc3_transform_2 i) (hinb3_2 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S2000x512_S512x32_S2000x32_1_0_0_1_n_n : DotDims S2000x512 S512x32 S2000x32 where
  lhsContracting := [1]
  rhsContracting := [0]
  lhsNonContracting := [0]
  rhsNonContracting := [1]
  lhsBatch := []
  rhsBatch := []
  wf := dot_S2000x512_S512x32_S2000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S2000x32_S32x16_S2000x16_1_0_0_1_n_n : DotDims S2000x32 S32x16 S2000x16 where
  lhsContracting := [1]
  rhsContracting := [0]
  lhsNonContracting := [0]
  rhsNonContracting := [1]
  lhsBatch := []
  rhsBatch := []
  wf := dot_S2000x32_S32x16_S2000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S2000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S2000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S2000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S32x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S2000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v64) S2000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v65) S1x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v66) S2000x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x32 : Shape := ⟨2, ![512, 32]⟩
abbrev S32 : Shape := ⟨1, ![32]⟩
abbrev S32x16 : Shape := ⟨2, ![32, 16]⟩
abbrev S16 : Shape := ⟨1, ![16]⟩
abbrev S100000x32 : Shape := ⟨2, ![100000, 32]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S3200000x32 : Shape := ⟨2, ![3200000, 32]⟩
abbrev S100000x1 : Shape := ⟨2, ![100000, 1]⟩
abbrev S1x32 : Shape := ⟨2, ![1, 32]⟩
abbrev S100000x16 : Shape := ⟨2, ![100000, 16]⟩
abbrev S3200000x16 : Shape := ⟨2, ![3200000, 16]⟩
abbrev S1x16 : Shape := ⟨2, ![1, 16]⟩

abbrev nBuf : Space → Nat
  | .hbm => 140
  | .vmem => 0
  | .smem => 0
  | _ => 0

abbrev hbmTy0_0 (i : Nat) : BufTy := match i % 128 with
  | 0 => ⟨S100000x512, .f32⟩
  | 1 => ⟨S2x3200000, .i32⟩
  | 2 => ⟨S512x32, .f32⟩
  | 3 => ⟨S32, .f32⟩
  | 4 => ⟨S32x16, .f32⟩
  | 5 => ⟨S16, .f32⟩
  | 6 => ⟨S100000x32, .f32⟩
  | 7 => ⟨S1x3200000, .i32⟩
  | 8 => ⟨S3200000, .i32⟩
  | 9 => ⟨S1x3200000, .i32⟩
  | 10 => ⟨S3200000, .i32⟩
  | 11 => ⟨S_, .f32⟩
  | 12 => ⟨S3200000, .f32⟩
  | 13 => ⟨S_, .f32⟩
  | 14 => ⟨S100000, .f32⟩
  | 15 => ⟨S3200000x1, .i32⟩
  | 16 => ⟨S100000, .f32⟩
  | 17 => ⟨S_, .f32⟩
  | 18 => ⟨S100000, .f32⟩
  | 19 => ⟨S100000, .f32⟩
  | 20 => ⟨S100000, .f32⟩
  | 21 => ⟨S_, .i32⟩
  | 22 => ⟨S3200000, .i32⟩
  | 23 => ⟨S3200000, .i1⟩
  | 24 => ⟨S_, .i32⟩
  | 25 => ⟨S3200000, .i32⟩
  | 26 => ⟨S3200000, .i32⟩
  | 27 => ⟨S3200000, .i32⟩
  | 28 => ⟨S3200000x1, .i32⟩
  | 29 => ⟨S3200000, .f32⟩
  | 30 => ⟨S_, .i32⟩
  | 31 => ⟨S3200000, .i32⟩
  | 32 => ⟨S3200000, .i1⟩
  | 33 => ⟨S_, .i32⟩
  | 34 => ⟨S3200000, .i32⟩
  | 35 => ⟨S3200000, .i32⟩
  | 36 => ⟨S3200000, .i32⟩
  | 37 => ⟨S3200000x1, .i32⟩
  | 38 => ⟨S3200000, .f32⟩
  | 39 => ⟨S3200000, .f32⟩
  | 40 => ⟨S_, .i32⟩
  | 41 => ⟨S3200000, .i32⟩
  | 42 => ⟨S3200000, .i1⟩
  | 43 => ⟨S_, .i32⟩
  | 44 => ⟨S3200000, .i32⟩
  | 45 => ⟨S3200000, .i32⟩
  | 46 => ⟨S3200000, .i32⟩
  | 47 => ⟨S3200000x1, .i32⟩
  | 48 => ⟨S3200000x32, .f32⟩
  | 49 => ⟨S3200000x1, .f32⟩
  | 50 => ⟨S3200000x32, .f32⟩
  | 51 => ⟨S3200000x32, .f32⟩
  | 52 => ⟨S_, .f32⟩
  | 53 => ⟨S100000x32, .f32⟩
  | 54 => ⟨S3200000x1, .i32⟩
  | 55 => ⟨S100000x32, .f32⟩
  | 56 => ⟨S100000, .f32⟩
  | 57 => ⟨S100000x1, .f32⟩
  | 58 => ⟨S100000x32, .f32⟩
  | 59 => ⟨S100000x32, .f32⟩
  | 60 => ⟨S100000x32, .f32⟩
  | 61 => ⟨S1x32, .f32⟩
  | 62 => ⟨S100000x32, .f32⟩
  | 63 => ⟨S100000x32, .f32⟩
  | 64 => ⟨S_, .f32⟩
  | 65 => ⟨S100000x32, .f32⟩
  | 66 => ⟨S100000x32, .f32⟩
  | 67 => ⟨S100000x16, .f32⟩
  | 68 => ⟨S1x3200000, .i32⟩
  | 69 => ⟨S3200000, .i32⟩
  | 70 => ⟨S1x3200000, .i32⟩
  | 71 => ⟨S3200000, .i32⟩
  | 72 => ⟨S_, .f32⟩
  | 73 => ⟨S3200000, .f32⟩
  | 74 => ⟨S_, .f32⟩
  | 75 => ⟨S100000, .f32⟩
  | 76 => ⟨S3200000x1, .i32⟩
  | 77 => ⟨S100000, .f32⟩
  | 78 => ⟨S_, .f32⟩
  | 79 => ⟨S100000, .f32⟩
  | 80 => ⟨S100000, .f32⟩
  | 81 => ⟨S100000, .f32⟩
  | 82 => ⟨S_, .i32⟩
  | 83 => ⟨S3200000, .i32⟩
  | 84 => ⟨S3200000, .i1⟩
  | 85 => ⟨S_, .i32⟩
  | 86 => ⟨S3200000, .i32⟩
  | 87 => ⟨S3200000, .i32⟩
  | 88 => ⟨S3200000, .i32⟩
  | 89 => ⟨S3200000x1, .i32⟩
  | 90 => ⟨S3200000, .f32⟩
  | 91 => ⟨S_, .i32⟩
  | 92 => ⟨S3200000, .i32⟩
  | 93 => ⟨S3200000, .i1⟩
  | 94 => ⟨S_, .i32⟩
  | 95 => ⟨S3200000, .i32⟩
  | 96 => ⟨S3200000, .i32⟩
  | 97 => ⟨S3200000, .i32⟩
  | 98 => ⟨S3200000x1, .i32⟩
  | 99 => ⟨S3200000, .f32⟩
  | 100 => ⟨S3200000, .f32⟩
  | 101 => ⟨S_, .i32⟩
  | 102 => ⟨S3200000, .i32⟩
  | 103 => ⟨S3200000, .i1⟩
  | 104 => ⟨S_, .i32⟩
  | 105 => ⟨S3200000, .i32⟩
  | 106 => ⟨S3200000, .i32⟩
  | 107 => ⟨S3200000, .i32⟩
  | 108 => ⟨S3200000x1, .i32⟩
  | 109 => ⟨S3200000x16, .f32⟩
  | 110 => ⟨S3200000x1, .f32⟩
  | 111 => ⟨S3200000x16, .f32⟩
  | 112 => ⟨S3200000x16, .f32⟩
  | 113 => ⟨S_, .f32⟩
  | 114 => ⟨S100000x16, .f32⟩
  | 115 => ⟨S3200000x1, .i32⟩
  | 116 => ⟨S100000x16, .f32⟩
  | 117 => ⟨S100000, .f32⟩
  | 118 => ⟨S100000x1, .f32⟩
  | 119 => ⟨S100000x16, .f32⟩
  | 120 => ⟨S100000x16, .f32⟩
  | 121 => ⟨S100000x16, .f32⟩
  | 122 => ⟨S1x16, .f32⟩
  | 123 => ⟨S100000x16, .f32⟩
  | 124 => ⟨S100000x16, .f32⟩
  | 125 => ⟨S_, .f32⟩
  | 126 => ⟨S100000, .f32⟩
  | 127 => ⟨S_, .f32⟩
  | _ => ⟨S100000x512, .f32⟩

abbrev hbmTy0_1 (i : Nat) : BufTy := match i % 128 with
  | 0 => ⟨S100000, .f32⟩
  | 1 => ⟨S100000, .f32⟩
  | 2 => ⟨S100000x1, .f32⟩
  | 3 => ⟨S100000x16, .f32⟩
  | 4 => ⟨S100000x16, .f32⟩
  | 5 => ⟨S100000x16, .f32⟩
  | 6 => ⟨S_, .f32⟩
  | 7 => ⟨S100000, .f32⟩
  | 8 => ⟨S100000x1, .f32⟩
  | 9 => ⟨S100000x1, .f32⟩
  | 10 => ⟨S100000x16, .f32⟩
  | 11 => ⟨S100000x16, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_8 : Ref sig .tc := ⟨.hbm, 72, rfl⟩
abbrev main_v54 : Ref sig .tc := ⟨.hbm, 73, rfl⟩
abbrev main_cst_9 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_10 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_11 : Ref sig .tc := ⟨.hbm, 82, rfl⟩
abbrev main_v61 : Ref sig .tc := ⟨.hbm, 83, rfl⟩
abbrev main_v62 : Ref sig .tc := ⟨.hbm, 84, rfl⟩
abbrev main_c_12 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_c_13 : Ref sig .tc := ⟨.hbm, 91, rfl⟩
abbrev main_v68 : Ref sig .tc := ⟨.hbm, 92, rfl⟩
abbrev main_v69 : Ref sig .tc := ⟨.hbm, 93, rfl⟩
abbrev main_c_14 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_c_15 : Ref sig .tc := ⟨.hbm, 101, rfl⟩
abbrev main_v76 : Ref sig .tc := ⟨.hbm, 102, rfl⟩
abbrev main_v77 : Ref sig .tc := ⟨.hbm, 103, rfl⟩
abbrev main_c_16 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_cst_17 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_call1_cst : Ref sig .tc := ⟨.hbm, 125, rfl⟩
abbrev main_call1_v0 : Ref sig .tc := ⟨.hbm, 126, rfl⟩
abbrev main_call1_cst_0 : Ref sig .tc := ⟨.hbm, 127, rfl⟩
abbrev main_call1_v1 : Ref sig .tc := ⟨.hbm, 128, rfl⟩
abbrev main_call1_v2 : Ref sig .tc := ⟨.hbm, 129, rfl⟩
abbrev main_call1_v3 : Ref sig .tc := ⟨.hbm, 130, rfl⟩
abbrev main_call1_v4 : Ref sig .tc := ⟨.hbm, 131, rfl⟩
abbrev main_call1_v5 : Ref sig .tc := ⟨.hbm, 132, rfl⟩
abbrev main_call1_v6 : Ref sig .tc := ⟨.hbm, 133, rfl⟩
abbrev main_call1_cst_1 : Ref sig .tc := ⟨.hbm, 134, rfl⟩
abbrev main_call1_v7 : Ref sig .tc := ⟨.hbm, 135, rfl⟩
abbrev main_call1_v8 : Ref sig .tc := ⟨.hbm, 136, rfl⟩
abbrev main_call1_v9 : Ref sig .tc := ⟨.hbm, 137, rfl⟩
abbrev main_call1_v10 : Ref sig .tc := ⟨.hbm, 138, rfl⟩
abbrev main_v97 : Ref sig .tc := ⟨.hbm, 139, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  dot_S100000x512_S512x32_S100000x32_1_0_0_1_n_n_wf : DotDims.WF S100000x512 S512x32 S100000x32 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S100000x32_S32x16_S100000x16_1_0_0_1_n_n_wf : DotDims.WF S100000x32 S32x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1

variable [Facts₀]

def dot_S100000x512_S512x32_S100000x32_1_0_0_1_n_n : DotDims S100000x512 S512x32 S100000x32 where
  lhsContracting := [1]
  rhsContracting := [0]
  lhsNonContracting := [0]
  rhsNonContracting := [1]
  lhsBatch := []
  rhsBatch := []
  wf := dot_S100000x512_S512x32_S100000x32_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf

class Facts : Prop extends Facts₀ where

variable [Facts]
-- ==== Proof.KernelRun.lean ====
/-
  The idealized kernel's run with its result NAMED.

  The program is seven segments: host operations, the first dense layer's region, host operations, the rectifier's region, the
  second dense layer's region, host operations, the log-softmax's region. The contents of every buffer at each segment
  boundary are a fold from the launch memory (`Gen.W0 … Gen.W7`): a stretch of host operations applies them, a region
  replaces its output array by what its write-backs leave. The library's theorem for such a list of segments gives every
  unscoped buffer of the final state at the last boundary's contents; here that is read at the result buffer as well as at
  the six arguments, so the run's post says: the result array is `W7` at the result buffer, and the arguments are unchanged.
-/
import proofs.«148304_j63161789055109_1_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the last boundary's
    contents `W7` at the result buffer, and every argument array ends as launched. -/
theorem run_named : θ_run defs (onTc (τ := τ) (main (F := F))) ⟨m, fun _ => 0, ρ⟩ (fun r => ∀ c : Dev nD,
      r.2.mem ((c.tc : Thread nD τ).loc main_v66) = W7 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v66 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Hand

end
-- ==== Proof.Spec.lean ====
/-
  The specification: what a two-layer graph convolution with a closing log-softmax computes, as functions of whole arrays over
  the extended reals, index by index. 100000 nodes, 3200000 edges, feature widths 512 → 32 → 16.

  * `prod1`, `prod2`: the two dense layers, `(X · W) (n, q) = ∑ k, X (n, k) · W (k, q)`.
  * `biasRelu`: a bias row added to every node's row, then the rectifier: `max (A (n, q) + b (0, q)) 0`.
  * `biasLogSoftmax`: a bias row added, then the log-softmax of each node's row of sixteen entries.
  * `aggregate`: the normalized neighbour aggregation both programs run on the host between the dense layers,
    `agg (i) = ∑_{edges j → i} d_j^{-1/2} d_i^{-1/2} h (j) + d_i^{-1} h (i)` with `d` the in-degree plus one, spelt as the
    scatter-adds, gathers and products the two programs share. It is stated ONCE, over the dimension records and the shape
    facts as parameters, so that the two programs' chains are the same function of the layer's input and are never opened.
-/
import Idealize.ShloMosaic.Lib.ValueIdx
import Idealize.ShloMosaic.PureOps.Ideal.Laws

noncomputable section

namespace Cert.GcnSpec

open Idealize.ShloMosaic Idealize.ShloMosaic.ValueIdx

abbrev Snk (n k : ℕ) : Shape := ⟨2, ![n, k]⟩

/-! ## The dense layers -/

/-- The first dense layer: node `n`'s 512 features against column `q` of the weights. -/
def prod1 (X : (Snk 100000 512).Idx → EReal) (W : (Snk 512 32).Idx → EReal) : (Snk 100000 32).Idx → EReal :=
  fun i => ∑ k : Fin 512, X (ix2 (i 0) k) * W (ix2 k (i 1))

/-- The second dense layer: node `n`'s 32 hidden features against column `q` of the weights. -/
def prod2 (X : (Snk 100000 32).Idx → EReal) (W : (Snk 32 16).Idx → EReal) : (Snk 100000 16).Idx → EReal :=
  fun i => ∑ k : Fin 32, X (ix2 (i 0) k) * W (ix2 k (i 1))

/-! ## Bias and rectifier -/

/-- The bias row added to every node's row, cut below at the zero word. -/
def biasRelu (A : (Snk 100000 32).Idx → EReal) (b : (Snk 1 32).Idx → EReal) : (Snk 100000 32).Idx → EReal :=
  fun i => max (A i + b (ix2 (0 : Fin 1) (i 1))) (Ideal.ofBits .f32 0x00000000#32)

/-! ## Bias and log-softmax -/

/-- The maximum of a row of sixteen entries as both programs take it: the fold of `max` from -∞, once more against -∞. -/
def rowMax (r : Fin 16 → EReal) : EReal :=
  max (Ideal.ofBits .f32 0xFF800000#32) ((Finset.univ : Finset (Fin 16)).fold max (Ideal.ofBits .f32 0xFF800000#32) r)

/-- The log-softmax of a row of sixteen entries at position `q`: the entry shifted by the row's maximum, minus the logarithm
    of the sum of the exponentials of the shifted row. -/
def rowLogSoftmax (r : Fin 16 → EReal) (q : Fin 16) : EReal :=
  (r q - rowMax r) - Ideal.log (∑ k : Fin 16, Ideal.exp (r k - rowMax r))

/-- The bias row added to every node's row, then each row's log-softmax. -/
def biasLogSoftmax (A : (Snk 100000 16).Idx → EReal) (b : (Snk 1 16).Idx → EReal) : (Snk 100000 16).Idx → EReal :=
  fun i => rowLogSoftmax (fun k => A (ix2 (i 0) k) + b (ix2 (0 : Fin 1) k)) (i 1)

/-! ## The neighbour aggregation -/

abbrev SE : Shape := ⟨1, ![3200000]⟩
abbrev SE1 : Shape := ⟨2, ![3200000, 1]⟩
abbrev SN : Shape := ⟨1, ![100000]⟩
abbrev SN1 : Shape := ⟨2, ![100000, 1]⟩
abbrev S0 : Shape := ⟨0, ![]⟩
abbrev SEI : Shape := ⟨2, ![2, 3200000]⟩
abbrev SEI1 : Shape := ⟨2, ![1, 3200000]⟩

/-- The shape facts the edge-side operations take: the two rows of the edge list sliced out and flattened, scalars splat
    over edges and nodes, an edge vector given a trailing unit axis. -/
structure EdgeFacts : Prop where
  sl0 : SEI.Slices ![0, 0] SEI1
  sl1 : SEI.Slices ![1, 0] SEI1
  cast : SEI1.ShapeCasts SE
  b0E : S0.BroadcastsInDim SE (![] : Fin 0 → Fin SE.rank)
  b0N : S0.BroadcastsInDim SN (![] : Fin 0 → Fin SN.rank)
  bEE1 : SE.BroadcastsInDim SE1 (![0] : Fin 1 → Fin SE1.rank)

/-- The shape facts of a layer of feature width `f`: zero splat over the node table, a per-edge and a per-node scalar
    spread along the feature axis. -/
structure FeatFacts (f : ℕ) : Prop where
  b0Nf : S0.BroadcastsInDim (Snk 100000 f) (![] : Fin 0 → Fin (Snk 100000 f).rank)
  bE1Ef : SE1.BroadcastsInDim (Snk 3200000 f) (![0, 1] : Fin 2 → Fin (Snk 3200000 f).rank)
  bNN1 : SN.BroadcastsInDim SN1 (![0] : Fin 1 → Fin SN1.rank)
  bN1Nf : SN1.BroadcastsInDim (Snk 100000 f) (![0, 1] : Fin 2 → Fin (Snk 100000 f).rank)

section Aggregate

variable (ef : EdgeFacts)

/-- The source node of every edge: row 0 of the edge list. -/
def srcOf (ei : IVec SEI 32) : IVec SE 32 := shapeCast SE (extractStridedSlice SEI1 ![0, 0] ei ef.sl0) ef.cast
/-- The target node of every edge: row 1 of the edge list. -/
def dstOf (ei : IVec SEI 32) : IVec SE 32 := shapeCast SE (extractStridedSlice SEI1 ![1, 0] ei ef.sl1) ef.cast

/-- A node index as a gather reads it: a negative one counted from the end, then given a trailing unit axis. -/
def wrapped (idx : IVec SE 32) : IVec SE1 32 :=
  broadcastInDim SE1 ![0] ef.bEE1
    (select (cmpi .slt idx (broadcastInDim SE ![] ef.b0E (constantI S0 32 0#32)))
      (addi idx (broadcastInDim SE ![] ef.b0E (constantI S0 32 100000#32))) idx)

/-- `d^{-1/2}` per node, `d` the number of edges into the node plus one. -/
def dinv (sc1 : ScatterDims SN SE1 SE) (ei : IVec SEI 32) : FVec Ideal SN .f32 :=
  Host.rsqrt (addf
    (Host.scatterAdd sc1 (broadcastInDim SN ![] ef.b0N (constant S0 .f32 0x00000000#32)) (broadcastInDim SE1 ![0] ef.bEE1 (dstOf ef ei))
      (broadcastInDim SE ![] ef.b0E (constant S0 .f32 0x3F800000#32)))
    (broadcastInDim SN ![] ef.b0N (constant S0 .f32 0x3F800000#32)))

/-- The weight of an edge: `d^{-1/2}` of its source times `d^{-1/2}` of its target. -/
def edgeNorm (sc1 : ScatterDims SN SE1 SE) (g1 : GatherDims SN SE1 SE) (ei : IVec SEI 32) : FVec Ideal SE .f32 :=
  mulf (Host.gather g1 (dinv ef sc1 ei) (wrapped ef (srcOf ef ei))) (Host.gather g1 (dinv ef sc1 ei) (wrapped ef (dstOf ef ei)))

/-- The weight of a node's own row: `d^{-1}`. -/
def selfNorm (sc1 : ScatterDims SN SE1 SE) (ei : IVec SEI 32) : FVec Ideal SN .f32 :=
  mulf (dinv ef sc1 ei) (dinv ef sc1 ei)

/-- One layer's aggregation of a node table `h` of width `f` along the edges `ei`: every edge's source row, weighted, summed
    into its target's row, plus each node's own row weighted by `d^{-1}`. -/
def aggregate (f : ℕ) (ff : FeatFacts f) (sc1 : ScatterDims SN SE1 SE) (g1 : GatherDims SN SE1 SE)
    (gf : GatherDims (Snk 100000 f) SE1 (Snk 3200000 f)) (scf : ScatterDims (Snk 100000 f) SE1 (Snk 3200000 f))
    (h : FVec Ideal (Snk 100000 f) .f32) (ei : IVec SEI 32) : FVec Ideal (Snk 100000 f) .f32 :=
  addf
    (Host.scatterAdd scf (broadcastInDim (Snk 100000 f) ![] ff.b0Nf (constant S0 .f32 0x00000000#32))
      (broadcastInDim SE1 ![0] ef.bEE1 (dstOf ef ei))
      (mulf (Host.gather gf h (wrapped ef (srcOf ef ei)))
        (broadcastInDim (Snk 3200000 f) ![0, 1] ff.bE1Ef (broadcastInDim SE1 ![0] ef.bEE1 (edgeNorm ef sc1 g1 ei)))))
    (mulf h (broadcastInDim (Snk 100000 f) ![0, 1] ff.bN1Nf (broadcastInDim SN1 ![0] ff.bNN1 (selfNorm ef sc1 ei))))

end Aggregate

end Cert.GcnSpec

end
-- ==== Proof.SpecNet.lean ====
/-
  The whole network as one function of the six arguments, over the extended reals:
  `log_softmax (Â · relu (Â · X W₁ + b₁) · W₂ + b₂)` with `Â ·` the normalized neighbour aggregation, stated over the
  dimension records and shape facts a program's host operations carry.
-/
import proofs.«148304_j63161789055109_1_alg».proof.Proof.Spec

noncomputable section

namespace Cert.GcnSpec

open Idealize.ShloMosaic Idealize.ShloMosaic.ValueIdx

/-- A length-`n` vector viewed as the one row of a `[1, n]` array. -/
def asRow {n : ℕ} (x : (⟨1, ![n]⟩ : Shape).Idx → EReal) : (Snk 1 n).Idx → EReal := fun i => x (ix1 (i 1))

/-- The two-layer network: dense layer, aggregation, bias and rectifier; dense layer, aggregation, bias and log-softmax. -/
def gcn (ef : EdgeFacts) (ff32 : FeatFacts 32) (ff16 : FeatFacts 16)
    (sc1 : ScatterDims SN SE1 SE) (g1 : GatherDims SN SE1 SE)
    (g32 : GatherDims (Snk 100000 32) SE1 (Snk 3200000 32)) (sc32 : ScatterDims (Snk 100000 32) SE1 (Snk 3200000 32))
    (g16 : GatherDims (Snk 100000 16) SE1 (Snk 3200000 16)) (sc16 : ScatterDims (Snk 100000 16) SE1 (Snk 3200000 16))
    (x : (Snk 100000 512).Idx → EReal) (ei : IVec SEI 32) (w1 : (Snk 512 32).Idx → EReal) (b1 : (⟨1, ![32]⟩ : Shape).Idx → EReal)
    (w2 : (Snk 32 16).Idx → EReal) (b2 : (⟨1, ![16]⟩ : Shape).Idx → EReal) : (Snk 100000 16).Idx → EReal :=
  biasLogSoftmax
    (aggregate ef 16 ff16 sc1 g1 g16 sc16
      (prod2 (biasRelu (aggregate ef 32 ff32 sc1 g1 g32 sc32 (prod1 x w1) ei) (asRow b1)) w2) ei)
    (asRow b2)

end Cert.GcnSpec

end
-- ==== Proof.LibColumns.lean ====
/-
  Small layout facts about columns, read at an index.

  A length-`a` vector viewed as an `[a, 1]` column holds, in row `p`, the vector's entry `p`; an `[a, 1]` column
  broadcast along its unit axis to `[a, b]` holds, at `(p, q)`, the column's entry in row `p`, whatever `q`. These are the two
  steps by which a per-row statistic (a row maximum, a row sum) is subtracted from every entry of its row. Both are instances
  of the row-major reading of a shape cast and of the trailing-axes reading of a broadcast.
-/
import Idealize.ShloMosaic.Lib.ValueIdx
import Idealize.ShloMosaic.Lib.ValueLayout
import Idealize.ShloMosaic.Lib.Pipeline.Value

noncomputable section

namespace Idealize.ShloMosaic.ColumnLayout

open Idealize.ShloMosaic Idealize.ShloMosaic.ValueIdx

variable {α : Type}

/-- A length-`a` vector cast to an `[a, 1]` column reads, at `(p, u)`, the vector at `p`: the row-major position of
    `(p, u)` in `[a, 1]` is `p · 1 + u = p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, q)`, the column at row `p`: the unit axis is read at `0`,
    the row axis at the index's own row. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnLayout

end
-- ==== Proof.Payload.lean ====
/-
  What each of the four kernel bodies stores, read at one index, over the extended reals.

  * The two matrix-product bodies store, at `(p, q)`, the sum over the contracted index `k` of `x (p, k) · w (k, q)`: the
    rounding to the narrower format on the way in is the identity on the extended reals, and the product accumulates into zero.
  * The bias-and-rectify body stores `max (a (p, q) + b (0, q)) 0`.
  * The bias-and-log-softmax body stores, at `(p, q)`, the row function `rowLogSoftmax` of row `p` of `a + b`:
    `(r q - M) - log (∑ k, exp (r k - M))` with `M` the row's maximum (taken from, and once more against, -∞).
-/
import proofs.«148304_j63161789055109_1_alg».proof.Proof.Gen.KernelIdeal.Skeleton
import proofs.«148304_j63161789055109_1_alg».proof.Proof.LibColumns
import proofs.«148304_j63161789055109_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.ValueIdx Idealize.ShloMosaic.ColumnLayout Cert.KernelIdeal Cert.KernelIdeal.Gen Cert.GcnSpec

/-! ## The operand indices of the two matrix products -/

theorem lhsA_0 (i : S2000x32.Idx) (q : dot_S2000x512_S512x32_S2000x32_1_0_0_1_n_n.contr.Idx) : (dot_S2000x512_S512x32_S2000x32_1_0_0_1_n_n.lhsIdx i q 0).val = (i 0).val := by
  unfold DotDims.lhsIdx
  rw [dif_neg (show ¬(0 : Fin S2000x512.rank) ∈ dot_S2000x512_S512x32_S2000x32_1_0_0_1_n_n.lhsBatch by decide), dif_pos (show (0 : Fin S2000x512.rank) ∈ dot_S2000x512_S512x32_S2000x32_1_0_0_1_n_n.lhsNonContracting by decide)]
  rfl
theorem lhsA_1 (i : S2000x32.Idx) (q : dot_S2000x512_S512x32_S2000x32_1_0_0_1_n_n.contr.Idx) : (dot_S2000x512_S512x32_S2000x32_1_0_0_1_n_n.lhsIdx i q 1).val = (q ⟨0, by decide⟩).val :=
  dot_S2000x512_S512x32_S2000x32_1_0_0_1_n_n.lhsIdx_val_of_single rfl i q
theorem rhsA_0 (i : S2000x32.Idx) (q : dot_S2000x512_S512x32_S2000x32_1_0_0_1_n_n.contr.Idx) : (dot_S2000x512_S512x32_S2000x32_1_0_0_1_n_n.rhsIdx i q 0).val = (q ⟨0, by decide⟩).val :=
  dot_S2000x512_S512x32_S2000x32_1_0_0_1_n_n.rhsIdx_val_of_single rfl i q
theorem rhsA_1 (i : S2000x32.Idx) (q : dot_S2000x512_S512x32_S2000x32_1_0_0_1_n_n.contr.Idx) : (dot_S2000x512_S512x32_S2000x32_1_0_0_1_n_n.rhsIdx i q 1).val = (i 1).val := by
  unfold DotDims.rhsIdx
  rw [dif_neg (show ¬(1 : Fin S512x32.rank) ∈ dot_S2000x512_S512x32_S2000x32_1_0_0_1_n_n.rhsBatch by decide), dif_pos (show (1 : Fin S512x32.rank) ∈ dot_S2000x512_S512x32_S2000x32_1_0_0_1_n_n.rhsNonContracting by decide)]
  rfl

theorem lhsB_0 (i : S2000x16.Idx) (q : dot_S2000x32_S32x16_S2000x16_1_0_0_1_n_n.contr.Idx) : (dot_S2000x32_S32x16_S2000x16_1_0_0_1_n_n.lhsIdx i q 0).val = (i 0).val := by
  unfold DotDims.lhsIdx
  rw [dif_neg (show ¬(0 : Fin S2000x32.rank) ∈ dot_S2000x32_S32x16_S2000x16_1_0_0_1_n_n.lhsBatch by decide), dif_pos (show (0 : Fin S2000x32.rank) ∈ dot_S2000x32_S32x16_S2000x16_1_0_0_1_n_n.lhsNonContracting by decide)]
  rfl
theorem lhsB_1 (i : S2000x16.Idx) (q : dot_S2000x32_S32x16_S2000x16_1_0_0_1_n_n.contr.Idx) : (dot_S2000x32_S32x16_S2000x16_1_0_0_1_n_n.lhsIdx i q 1).val = (q ⟨0, by decide⟩).val :=
  dot_S2000x32_S32x16_S2000x16_1_0_0_1_n_n.lhsIdx_val_of_single rfl i q
theorem rhsB_0 (i : S2000x16.Idx) (q : dot_S2000x32_S32x16_S2000x16_1_0_0_1_n_n.contr.Idx) : (dot_S2000x32_S32x16_S2000x16_1_0_0_1_n_n.rhsIdx i q 0).val = (q ⟨0, by decide⟩).val :=
  dot_S2000x32_S32x16_S2000x16_1_0_0_1_n_n.rhsIdx_val_of_single rfl i q
theorem rhsB_1 (i : S2000x16.Idx) (q : dot_S2000x32_S32x16_S2000x16_1_0_0_1_n_n.contr.Idx) : (dot_S2000x32_S32x16_S2000x16_1_0_0_1_n_n.rhsIdx i q 1).val = (i 1).val := by
  unfold DotDims.rhsIdx
  rw [dif_neg (show ¬(1 : Fin S32x16.rank) ∈ dot_S2000x32_S32x16_S2000x16_1_0_0_1_n_n.rhsBatch by decide), dif_pos (show (1 : Fin S32x16.rank) ∈ dot_S2000x32_S32x16_S2000x16_1_0_0_1_n_n.rhsNonContracting by decide)]
  rfl

/-! ## The matrix products -/

/-- The first layer's product block: entry `(p, q)` is `∑ k, x (p, k) · w (k, q)` over the 512 input features. -/
theorem pay0_apply (x0 : FVec Ideal S2000x512 .f32) (x1 : FVec Ideal S512x32 .f32) (p : Fin 2000) (q : Fin 32) :
    k0_pay1 (F := Ideal) x0 x1 (ix2 p q) = ∑ k : Fin 512, x0 (ix2 p k) * x1 (ix2 k q) := by
  unfold k0_pay1
  simp only [matmul]
  rw [Ideal.matmul_constant_zero_apply, ← Equiv.sum_comp (contrEquiv1 dot_S2000x512_S512x32_S2000x32_1_0_0_1_n_n 512 rfl rfl).symm]
  refine Finset.sum_congr rfl fun k _ => ?_
  have hk := contrEquiv1_symm_val dot_S2000x512_S512x32_S2000x32_1_0_0_1_n_n 512 rfl rfl k
  have el : dot_S2000x512_S512x32_S2000x32_1_0_0_1_n_n.lhsIdx (ix2 p q) ((contrEquiv1 dot_S2000x512_S512x32_S2000x32_1_0_0_1_n_n 512 rfl rfl).symm k) = ix2 p k := funext fun a => Fin.ext (by
    match a with
    | ⟨0, _⟩ => exact lhsA_0 _ _
    | ⟨1, _⟩ => exact (lhsA_1 _ _).trans hk)
  have er : dot_S2000x512_S512x32_S2000x32_1_0_0_1_n_n.rhsIdx (ix2 p q) ((contrEquiv1 dot_S2000x512_S512x32_S2000x32_1_0_0_1_n_n 512 rfl rfl).symm k) = ix2 k q := funext fun a => Fin.ext (by
    match a with
    | ⟨0, _⟩ => exact (rhsA_0 _ _).trans hk
    | ⟨1, _⟩ => exact rhsA_1 _ _)
  rw [el, er]
  rfl

/-- The second layer's product block: entry `(p, q)` is `∑ k, h (p, k) · w (k, q)` over the 32 hidden features. -/
theorem pay2_apply (x0 : FVec Ideal S2000x32 .f32) (x1 : FVec Ideal S32x16 .f32) (p : Fin 2000) (q : Fin 16) :
    k2_pay1 (F := Ideal) x0 x1 (ix2 p q) = ∑ k : Fin 32, x0 (ix2 p k) * x1 (ix2 k q) := by
  unfold k2_pay1
  simp only [matmul]
  rw [Ideal.matmul_constant_zero_apply, ← Equiv.sum_comp (contrEquiv1 dot_S2000x32_S32x16_S2000x16_1_0_0_1_n_n 32 rfl rfl).symm]
  refine Finset.sum_congr rfl fun k _ => ?_
  have hk := contrEquiv1_symm_val dot_S2000x32_S32x16_S2000x16_1_0_0_1_n_n 32 rfl rfl k
  have el : dot_S2000x32_S32x16_S2000x16_1_0_0_1_n_n.lhsIdx (ix2 p q) ((contrEquiv1 dot_S2000x32_S32x16_S2000x16_1_0_0_1_n_n 32 rfl rfl).symm k) = ix2 p k := funext fun a => Fin.ext (by
    match a with
    | ⟨0, _⟩ => exact lhsB_0 _ _
    | ⟨1, _⟩ => exact (lhsB_1 _ _).trans hk)
  have er : dot_S2000x32_S32x16_S2000x16_1_0_0_1_n_n.rhsIdx (ix2 p q) ((contrEquiv1 dot_S2000x32_S32x16_S2000x16_1_0_0_1_n_n 32 rfl rfl).symm k) = ix2 k q := funext fun a => Fin.ext (by
    match a with
    | ⟨0, _⟩ => exact (rhsB_0 _ _).trans hk
    | ⟨1, _⟩ => exact rhsB_1 _ _)
  rw [el, er]
  simp only [truncf_apply, shapeCast_self]

/-! ## Bias and rectifier -/

/-- Entry `(p, q)` of the rectified block: the aggregated entry plus the bias of column `q`, cut below at the zero word. -/
theorem pay1_apply (x0 : FVec Ideal S2000x32 .f32) (x1 : FVec Ideal S1x32 .f32) (p : Fin 2000) (q : Fin 32) :
    k1_pay1 (F := Ideal) x0 x1 (ix2 p q)
      = max (x0 (ix2 p q) + x1 (ix2 (0 : Fin 1) q)) (Ideal.ofBits .f32 0x00000000#32) := by
  unfold k1_pay1
  rw [shapeCast_self, shapeCast_self, maximumf_apply, addf_apply, broadcastTo_1b_ab_apply]
  rfl

/-! ## Bias and log-softmax -/

/-- The row maximum inside the block: the lane reduction of row `p` of `v` from -∞ is the fold of `max` over the row. -/
theorem rowMax_block (v : FVec Ideal S2000x16 .f32) (hφ : FKind.Formats .f32)
    (hacc : (0xFF800000#32 : BitVec 32) = 0xFF800000#32) (p : Fin 2000) :
    multiReduction .maximumf [1] S2000 v 0xFF800000#32 reduces_S2000x16_S2000 hφ hacc (ix1 p)
      = (Finset.univ : Finset (Fin 16)).fold max (Ideal.ofBits .f32 0xFF800000#32) (fun k => v (ix2 p k)) := by
  refine (Ideal.multiReduction_maximumf_single v 0xFF800000#32 reduces_S2000x16_S2000 hφ hacc (ix1 p)).trans ?_
  refine congrArg (fun f => (Finset.univ : Finset (Fin 16)).fold max (Ideal.ofBits .f32 0xFF800000#32) f) ?_
  funext k
  exact congrArg v (funext fun a => Fin.ext (by match a with | ⟨0, _⟩ => rfl | ⟨1, _⟩ => rfl))

/-- The row sum inside the block: the lane sum of row `p` of `v` into zero is the sum over the row. -/
theorem rowSum_block (v : FVec Ideal S2000x16 .f32) (hφ : FKind.Formats .f32)
    (hacc : (0x00000000#32 : BitVec 32) = 0x00000000#32) (p : Fin 2000) :
    multiReduction .add [1] S2000 v 0x00000000#32 reduces_S2000x16_S2000 hφ hacc (ix1 p) = ∑ k : Fin 16, v (ix2 p k) := by
  refine (Ideal.multiReduction_add_single v 0x00000000#32 reduces_S2000x16_S2000 hφ hacc (ix1 p)).trans ?_
  refine Finset.sum_congr rfl fun k _ => ?_
  exact congrArg v (funext fun a => Fin.ext (by match a with | ⟨0, _⟩ => rfl | ⟨1, _⟩ => rfl))

/-- Entry `(p, q)` of the log-softmax block is the row function of row `p` of the aggregated block plus the bias row. -/
theorem pay3_apply (x0 : FVec Ideal S2000x16 .f32) (x1 : FVec Ideal S1x16 .f32) (p : Fin 2000) (q : Fin 16) :
    k3_pay1 (F := Ideal) x0 x1 (ix2 p q)
      = rowLogSoftmax (fun k => x0 (ix2 p k) + x1 (ix2 (0 : Fin 1) k)) q := by
  have hrow : ∀ k : Fin 16, addf (F := Ideal) x0 (broadcastTo S2000x16 x1 broadcasts_S1x16_S2000x16) (ix2 p k)
      = x0 (ix2 p k) + x1 (ix2 (0 : Fin 1) k) := fun k => by
    rw [addf_apply, broadcastTo_1b_ab_apply]
  unfold k3_pay1 rowLogSoftmax rowMax
  rw [shapeCast_self, shapeCast_self]
  rw [subf_apply, subf_apply, broadcastTo_a1_ab_apply, broadcastTo_a1_ab_apply, shapeCast_a_a1_apply]
  show (_ - max _ _) - Ideal.log _ = _
  rw [rowMax_block, hrow]
  simp only [hrow]
  refine congrArg₂ (fun a s => a - Ideal.log s) rfl ?_
  rw [shapeCast_a_a1_apply, rowSum_block]
  refine Finset.sum_congr rfl fun k _ => ?_
  show Ideal.exp (_ - _) = _
  rw [broadcastTo_a1_ab_apply, shapeCast_a_a1_apply]
  show Ideal.exp (_ - max _ _) = _
  rw [rowMax_block]
  simp only [hrow, broadcast_apply, Ideal.ofBits_def]

end Cert.KernelIdeal.Hand

end
-- ==== Proof.Region0.lean ====
/-
  The first dense layer's region, from its blocks to its array.

  Fifty grid points; point `t` reads rows `2000 t … 2000 t + 1999` of the node features and the whole weight matrix, and writes the same rows of the product. The blocks of the output tile it, so the array ends holding the product `X · W₁`, entry by entry the sum over the 512 input features.
  The statement is at ANY contents `V` of the buffers when the region is entered: the array after the region is the
  whole-array function of the two arrays the region reads, as `V` holds them.
-/
import proofs.«148304_j63161789055109_1_alg».proof.Proof.Gen.KernelIdeal.Frame
import proofs.«148304_j63161789055109_1_alg».proof.Proof.Spec
import proofs.«148304_j63161789055109_1_alg».proof.Proof.Payload
import Idealize.ShloMosaic.Lib.Pipeline.Value
import Idealize.ShloMosaic.Lib.ValueIdx

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen Cert.GcnSpec

variable (V : (c : Dev nD) → (b : Ref sig .tc) → Buf (Elt Ideal) ((c : Thread nD τ).loc b))

theorem hz0 : (![0, 0] : Fin 2 → Nat) = fun _ => 0 := funext fun a => by fin_cases a <;> rfl

/-- The block indices at point `t`: the row-blocked windows are at block `(t, 0)`, the whole-array window at `(0, 0)`. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What the body stores at entry `j` of point `t`'s block is the specification at the array index that entry sits at. -/
theorem point0 (c : Dev nD) (t : Fin cfg0.N) (j : S2000x32.Idx) :
    k0_pay1 (F := Ideal) (iblk0 V c 0 t) (iblk0 V c 1 t) j
      = prod1 (V c main_arg0) (V c main_arg2) (((cfg0.win 2).blk t).view.emb j) := by
  obtain ⟨p, q, rfl⟩ : ∃ (p : Fin 2000) (q : Fin 32), j = ix2 p q := ⟨j 0, j 1, eq_ix2 j⟩
  obtain ⟨e00, e01, e10, e11, e20, e21⟩ := idx0 t
  refine (pay0_apply _ _ p q).trans ?_
  unfold prod1
  refine Finset.sum_congr rfl fun k _ => ?_
  refine congrArg₂ (· * ·) ?_ ?_
  · unfold iblk0
    rw [View.read_apply]
    show V c main_arg0 _ = V c main_arg0 _
    refine congrArg (V c main_arg0) (funext fun a => Fin.ext ?_)
    match a with
    | ⟨0, _⟩ => show win0_0.index t (0 : Fin 2) * 2000 + 1 * p.val = win0_2.index t (0 : Fin 2) * 2000 + 1 * p.val; rw [e00, e20]
    | ⟨1, _⟩ => show win0_0.index t (1 : Fin 2) * 512 + 1 * k.val = k.val; rw [e01]; omega
  · unfold iblk0
    rw [View.read_apply]
    show V c main_arg2 _ = V c main_arg2 _
    refine congrArg (V c main_arg2) (funext fun a => Fin.ext ?_)
    match a with
    | ⟨0, _⟩ => show win0_1.index t (0 : Fin 2) * 512 + 1 * k.val = k.val; rw [e10]; omega
    | ⟨1, _⟩ => show win0_1.index t (1 : Fin 2) * 32 + 1 * q.val = win0_2.index t (1 : Fin 2) * 32 + 1 * q.val; rw [e11, e21]

/-- What point `t` writes back is block `t` of the specification. -/
theorem flushed0 (c : Dev nD) (t : Fin cfg0.N) :
    (dat0 V c).flushed 2 t = ((cfg0.win 2).blk t).view.read (Elt Ideal) (prod1 (V c main_arg0) (V c main_arg2)) := by
  show (cfg0.win 2).cut (grid0.coords t) ((dat0 V c).after 2 t) = _
  rw [after0_2]
  unfold out0_2
  rw [View.canon_unit_zero hz0]
  simp only [View.ld_unit_zero (S := S2000x512) hz0, View.ld_unit_zero (S := S512x32) hz0]
  funext j
  exact point0 V c t j

/-- An index of the output array is in point `t`'s block iff each coordinate is in the block's range on its axis. -/
theorem mem_blk0 (t : Fin cfg0.N) (i : S100000x32.Idx) :
    i ∈ ((cfg0.win 2).blk t).view.set ↔ ∀ a : Fin 2, win0_2.index t a * S2000x32.size a ≤ (i a).val ∧ (i a).val < win0_2.index t a * S2000x32.size a + S2000x32.size a := by
  show i ∈ ((View.whole main_v27).slice (win0_2.rect t)).set ↔ _
  rw [View.set_slice_whole, Rect.mem_set_unit]
  exact Iff.rfl

/-- Row `n` of the output lies in the block of point `n / 2000`: the fifty blocks tile the array. -/
theorem cover0 (i : S100000x32.Idx) : ∃ t : Fin cfg0.N, (cfg0.win 2).flush t = true ∧ i ∈ ((cfg0.win 2).blk t).view.set := by
  have hi0 : (i 0).val < 100000 := (i 0).isLt
  have hi1 : (i 1).val < 32 := (i 1).isLt
  have hN : cfg0.N = 50 := N_0
  have ht : (i 0).val / 2000 < cfg0.N := by rw [hN]; omega
  obtain ⟨-, -, -, -, e20, e21⟩ := idx0 ⟨(i 0).val / 2000, ht⟩
  refine ⟨⟨(i 0).val / 2000, ht⟩, flush0_2 _, ?_⟩
  rw [mem_blk0]
  intro a
  match a with
  | ⟨0, _⟩ =>
    show win0_2.index ⟨(i 0).val / 2000, ht⟩ (0 : Fin 2) * 2000 ≤ (i 0).val ∧ (i 0).val < win0_2.index ⟨(i 0).val / 2000, ht⟩ (0 : Fin 2) * 2000 + 2000
    rw [e20]
    show (i 0).val / 2000 * 2000 ≤ (i 0).val ∧ (i 0).val < (i 0).val / 2000 * 2000 + 2000
    omega
  | ⟨1, _⟩ =>
    show win0_2.index ⟨(i 0).val / 2000, ht⟩ (1 : Fin 2) * 32 ≤ (i 1).val ∧ (i 1).val < win0_2.index ⟨(i 0).val / 2000, ht⟩ (1 : Fin 2) * 32 + 32
    rw [e21]
    omega

/-- The output array after the region is the specification of the arrays the region read. -/
theorem final0 (c : Dev nD) : (dat0 V c).arrAt 2 cfg0.N = prod1 (V c main_arg0) (V c main_arg2) :=
  (dat0 V c).arrAt_eq_of_cover 2 (prod1 (V c main_arg0) (V c main_arg2)) (fun t _ => flushed0 V c t) (cover0)

end Cert.KernelIdeal.Hand

end
-- ==== Proof.Region1.lean ====
/-
  The bias-and-rectifier region, from its blocks to its array.

  Fifty grid points; point `t` reads rows `2000 t … 2000 t + 1999` of the aggregated table and the one bias row, and writes the same rows of the rectified table. The blocks of the output tile it, so the array ends holding `max (A + b) 0`, entry by entry.
  The statement is at ANY contents `V` of the buffers when the region is entered: the array after the region is the
  whole-array function of the two arrays the region reads, as `V` holds them.
-/
import proofs.«148304_j63161789055109_1_alg».proof.Proof.Gen.KernelIdeal.Frame
import proofs.«148304_j63161789055109_1_alg».proof.Proof.Spec
import proofs.«148304_j63161789055109_1_alg».proof.Proof.Payload
import Idealize.ShloMosaic.Lib.Pipeline.Value
import Idealize.ShloMosaic.Lib.ValueIdx

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen Cert.GcnSpec

variable (V : (c : Dev nD) → (b : Ref sig .tc) → Buf (Elt Ideal) ((c : Thread nD τ).loc b))

theorem hz1 : (![0, 0] : Fin 2 → Nat) = fun _ => 0 := funext fun a => by fin_cases a <;> rfl

/-- The block indices at point `t`: the row-blocked windows are at block `(t, 0)`, the whole-array window at `(0, 0)`. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What the body stores at entry `j` of point `t`'s block is the specification at the array index that entry sits at. -/
theorem point1 (c : Dev nD) (t : Fin cfg1.N) (j : S2000x32.Idx) :
    k1_pay1 (F := Ideal) (iblk1 V c 0 t) (iblk1 V c 1 t) j
      = biasRelu (V c main_v44) (V c main_v45) (((cfg1.win 2).blk t).view.emb j) := by
  obtain ⟨p, q, rfl⟩ : ∃ (p : Fin 2000) (q : Fin 32), j = ix2 p q := ⟨j 0, j 1, eq_ix2 j⟩
  obtain ⟨e00, e01, e10, e11, e20, e21⟩ := idx1 t
  refine (pay1_apply _ _ p q).trans ?_
  unfold biasRelu
  refine congrArg₂ (fun a b => max (a + b) (Ideal.ofBits .f32 0x00000000#32)) ?_ ?_
  · unfold iblk1
    rw [View.read_apply]
    show V c main_v44 _ = V c main_v44 _
    refine congrArg (V c main_v44) (funext fun a => Fin.ext ?_)
    match a with
    | ⟨0, _⟩ => show win1_0.index t (0 : Fin 2) * 2000 + 1 * p.val = win1_2.index t (0 : Fin 2) * 2000 + 1 * p.val; rw [e00, e20]
    | ⟨1, _⟩ => show win1_0.index t (1 : Fin 2) * 32 + 1 * q.val = win1_2.index t (1 : Fin 2) * 32 + 1 * q.val; rw [e01, e21]
  · unfold iblk1
    rw [View.read_apply]
    show V c main_v45 _ = V c main_v45 _
    refine congrArg (V c main_v45) (funext fun a => Fin.ext ?_)
    match a with
    | ⟨0, _⟩ => show win1_1.index t (0 : Fin 2) * 1 + 1 * 0 = 0; rw [e10]
    | ⟨1, _⟩ => show win1_1.index t (1 : Fin 2) * 32 + 1 * q.val = win1_2.index t (1 : Fin 2) * 32 + 1 * q.val; rw [e11, e21]

/-- What point `t` writes back is block `t` of the specification. -/
theorem flushed1 (c : Dev nD) (t : Fin cfg1.N) :
    (dat1 V c).flushed 2 t = ((cfg1.win 2).blk t).view.read (Elt Ideal) (biasRelu (V c main_v44) (V c main_v45)) := by
  show (cfg1.win 2).cut (grid1.coords t) ((dat1 V c).after 2 t) = _
  rw [after1_2]
  unfold out1_2
  rw [View.canon_unit_zero hz1]
  simp only [View.ld_unit_zero (S := S2000x32) hz1, View.ld_unit_zero (S := S1x32) hz1]
  funext j
  exact point1 V c t j

/-- An index of the output array is in point `t`'s block iff each coordinate is in the block's range on its axis. -/
theorem mem_blk1 (t : Fin cfg1.N) (i : S100000x32.Idx) :
    i ∈ ((cfg1.win 2).blk t).view.set ↔ ∀ a : Fin 2, win1_2.index t a * S2000x32.size a ≤ (i a).val ∧ (i a).val < win1_2.index t a * S2000x32.size a + S2000x32.size a := by
  show i ∈ ((View.whole main_v46).slice (win1_2.rect t)).set ↔ _
  rw [View.set_slice_whole, Rect.mem_set_unit]
  exact Iff.rfl

/-- Row `n` of the output lies in the block of point `n / 2000`: the fifty blocks tile the array. -/
theorem cover1 (i : S100000x32.Idx) : ∃ t : Fin cfg1.N, (cfg1.win 2).flush t = true ∧ i ∈ ((cfg1.win 2).blk t).view.set := by
  have hi0 : (i 0).val < 100000 := (i 0).isLt
  have hi1 : (i 1).val < 32 := (i 1).isLt
  have hN : cfg1.N = 50 := N_1
  have ht : (i 0).val / 2000 < cfg1.N := by rw [hN]; omega
  obtain ⟨-, -, -, -, e20, e21⟩ := idx1 ⟨(i 0).val / 2000, ht⟩
  refine ⟨⟨(i 0).val / 2000, ht⟩, flush1_2 _, ?_⟩
  rw [mem_blk1]
  intro a
  match a with
  | ⟨0, _⟩ =>
    show win1_2.index ⟨(i 0).val / 2000, ht⟩ (0 : Fin 2) * 2000 ≤ (i 0).val ∧ (i 0).val < win1_2.index ⟨(i 0).val / 2000, ht⟩ (0 : Fin 2) * 2000 + 2000
    rw [e20]
    show (i 0).val / 2000 * 2000 ≤ (i 0).val ∧ (i 0).val < (i 0).val / 2000 * 2000 + 2000
    omega
  | ⟨1, _⟩ =>
    show win1_2.index ⟨(i 0).val / 2000, ht⟩ (1 : Fin 2) * 32 ≤ (i 1).val ∧ (i 1).val < win1_2.index ⟨(i 0).val / 2000, ht⟩ (1 : Fin 2) * 32 + 32
    rw [e21]
    omega

/-- The output array after the region is the specification of the arrays the region read. -/
theorem final1 (c : Dev nD) : (dat1 V c).arrAt 2 cfg1.N = biasRelu (V c main_v44) (V c main_v45) :=
  (dat1 V c).arrAt_eq_of_cover 2 (biasRelu (V c main_v44) (V c main_v45)) (fun t _ => flushed1 V c t) (cover1)

end Cert.KernelIdeal.Hand

end
-- ==== Proof.Region2.lean ====
/-
  The second dense layer's region, from its blocks to its array.

  Fifty grid points; point `t` reads rows `2000 t … 2000 t + 1999` of the hidden table and the whole weight matrix, and writes the same rows of the product. The blocks of the output tile it, so the array ends holding the product `H · W₂`, entry by entry the sum over the 32 hidden features.
  The statement is at ANY contents `V` of the buffers when the region is entered: the array after the region is the
  whole-array function of the two arrays the region reads, as `V` holds them.
-/
import proofs.«148304_j63161789055109_1_alg».proof.Proof.Gen.KernelIdeal.Frame
import proofs.«148304_j63161789055109_1_alg».proof.Proof.Spec
import proofs.«148304_j63161789055109_1_alg».proof.Proof.Payload
import Idealize.ShloMosaic.Lib.Pipeline.Value
import Idealize.ShloMosaic.Lib.ValueIdx

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen Cert.GcnSpec

variable (V : (c : Dev nD) → (b : Ref sig .tc) → Buf (Elt Ideal) ((c : Thread nD τ).loc b))

theorem hz2 : (![0, 0] : Fin 2 → Nat) = fun _ => 0 := funext fun a => by fin_cases a <;> rfl

/-- The block indices at point `t`: the row-blocked windows are at block `(t, 0)`, the whole-array window at `(0, 0)`. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What the body stores at entry `j` of point `t`'s block is the specification at the array index that entry sits at. -/
theorem point2 (c : Dev nD) (t : Fin cfg2.N) (j : S2000x16.Idx) :
    k2_pay1 (F := Ideal) (iblk2 V c 0 t) (iblk2 V c 1 t) j
      = prod2 (V c main_v46) (V c main_arg4) (((cfg2.win 2).blk t).view.emb j) := by
  obtain ⟨p, q, rfl⟩ : ∃ (p : Fin 2000) (q : Fin 16), j = ix2 p q := ⟨j 0, j 1, eq_ix2 j⟩
  obtain ⟨e00, e01, e10, e11, e20, e21⟩ := idx2 t
  refine (pay2_apply _ _ p q).trans ?_
  unfold prod2
  refine Finset.sum_congr rfl fun k _ => ?_
  refine congrArg₂ (· * ·) ?_ ?_
  · unfold iblk2
    rw [View.read_apply]
    show V c main_v46 _ = V c main_v46 _
    refine congrArg (V c main_v46) (funext fun a => Fin.ext ?_)
    match a with
    | ⟨0, _⟩ => show win2_0.index t (0 : Fin 2) * 2000 + 1 * p.val = win2_2.index t (0 : Fin 2) * 2000 + 1 * p.val; rw [e00, e20]
    | ⟨1, _⟩ => show win2_0.index t (1 : Fin 2) * 32 + 1 * k.val = k.val; rw [e01]; omega
  · unfold iblk2
    rw [View.read_apply]
    show V c main_arg4 _ = V c main_arg4 _
    refine congrArg (V c main_arg4) (funext fun a => Fin.ext ?_)
    match a with
    | ⟨0, _⟩ => show win2_1.index t (0 : Fin 2) * 32 + 1 * k.val = k.val; rw [e10]; omega
    | ⟨1, _⟩ => show win2_1.index t (1 : Fin 2) * 16 + 1 * q.val = win2_2.index t (1 : Fin 2) * 16 + 1 * q.val; rw [e11, e21]

/-- What point `t` writes back is block `t` of the specification. -/
theorem flushed2 (c : Dev nD) (t : Fin cfg2.N) :
    (dat2 V c).flushed 2 t = ((cfg2.win 2).blk t).view.read (Elt Ideal) (prod2 (V c main_v46) (V c main_arg4)) := by
  show (cfg2.win 2).cut (grid2.coords t) ((dat2 V c).after 2 t) = _
  rw [after2_2]
  unfold out2_2
  rw [View.canon_unit_zero hz2]
  simp only [View.ld_unit_zero (S := S2000x32) hz2, View.ld_unit_zero (S := S32x16) hz2]
  funext j
  exact point2 V c t j

/-- An index of the output array is in point `t`'s block iff each coordinate is in the block's range on its axis. -/
theorem mem_blk2 (t : Fin cfg2.N) (i : S100000x16.Idx) :
    i ∈ ((cfg2.win 2).blk t).view.set ↔ ∀ a : Fin 2, win2_2.index t a * S2000x16.size a ≤ (i a).val ∧ (i a).val < win2_2.index t a * S2000x16.size a + S2000x16.size a := by
  show i ∈ ((View.whole main_v47).slice (win2_2.rect t)).set ↔ _
  rw [View.set_slice_whole, Rect.mem_set_unit]
  exact Iff.rfl

/-- Row `n` of the output lies in the block of point `n / 2000`: the fifty blocks tile the array. -/
theorem cover2 (i : S100000x16.Idx) : ∃ t : Fin cfg2.N, (cfg2.win 2).flush t = true ∧ i ∈ ((cfg2.win 2).blk t).view.set := by
  have hi0 : (i 0).val < 100000 := (i 0).isLt
  have hi1 : (i 1).val < 16 := (i 1).isLt
  have hN : cfg2.N = 50 := N_2
  have ht : (i 0).val / 2000 < cfg2.N := by rw [hN]; omega
  obtain ⟨-, -, -, -, e20, e21⟩ := idx2 ⟨(i 0).val / 2000, ht⟩
  refine ⟨⟨(i 0).val / 2000, ht⟩, flush2_2 _, ?_⟩
  rw [mem_blk2]
  intro a
  match a with
  | ⟨0, _⟩ =>
    show win2_2.index ⟨(i 0).val / 2000, ht⟩ (0 : Fin 2) * 2000 ≤ (i 0).val ∧ (i 0).val < win2_2.index ⟨(i 0).val / 2000, ht⟩ (0 : Fin 2) * 2000 + 2000
    rw [e20]
    show (i 0).val / 2000 * 2000 ≤ (i 0).val ∧ (i 0).val < (i 0).val / 2000 * 2000 + 2000
    omega
  | ⟨1, _⟩ =>
    show win2_2.index ⟨(i 0).val / 2000, ht⟩ (1 : Fin 2) * 16 ≤ (i 1).val ∧ (i 1).val < win2_2.index ⟨(i 0).val / 2000, ht⟩ (1 : Fin 2) * 16 + 16
    rw [e21]
    omega

/-- The output array after the region is the specification of the arrays the region read. -/
theorem final2 (c : Dev nD) : (dat2 V c).arrAt 2 cfg2.N = prod2 (V c main_v46) (V c main_arg4) :=
  (dat2 V c).arrAt_eq_of_cover 2 (prod2 (V c main_v46) (V c main_arg4)) (fun t _ => flushed2 V c t) (cover2)

end Cert.KernelIdeal.Hand

end
-- ==== Proof.Region3.lean ====
/-
  The bias-and-log-softmax region, from its blocks to its array.

  Fifty grid points; point `t` reads rows `2000 t … 2000 t + 1999` of the aggregated table and the one bias row, and writes the same rows of the result. Each output row depends on its own input row only, and the blocks of the output tile it, so the array ends holding the log-softmax of every row of `A + b`.
  The statement is at ANY contents `V` of the buffers when the region is entered: the array after the region is the
  whole-array function of the two arrays the region reads, as `V` holds them.
-/
import proofs.«148304_j63161789055109_1_alg».proof.Proof.Gen.KernelIdeal.Frame
import proofs.«148304_j63161789055109_1_alg».proof.Proof.Spec
import proofs.«148304_j63161789055109_1_alg».proof.Proof.Payload
import Idealize.ShloMosaic.Lib.Pipeline.Value
import Idealize.ShloMosaic.Lib.ValueIdx

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen Cert.GcnSpec

variable (V : (c : Dev nD) → (b : Ref sig .tc) → Buf (Elt Ideal) ((c : Thread nD τ).loc b))

theorem hz3 : (![0, 0] : Fin 2 → Nat) = fun _ => 0 := funext fun a => by fin_cases a <;> rfl

/-- The block indices at point `t`: the row-blocked windows are at block `(t, 0)`, the whole-array window at `(0, 0)`. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What the body stores at entry `j` of point `t`'s block is the specification at the array index that entry sits at. -/
theorem point3 (c : Dev nD) (t : Fin cfg3.N) (j : S2000x16.Idx) :
    k3_pay1 (F := Ideal) (iblk3 V c 0 t) (iblk3 V c 1 t) j
      = biasLogSoftmax (V c main_v64) (V c main_v65) (((cfg3.win 2).blk t).view.emb j) := by
  obtain ⟨p, q, rfl⟩ : ∃ (p : Fin 2000) (q : Fin 16), j = ix2 p q := ⟨j 0, j 1, eq_ix2 j⟩
  obtain ⟨e00, e01, e10, e11, e20, e21⟩ := idx3 t
  refine (pay3_apply _ _ p q).trans ?_
  unfold biasLogSoftmax
  refine congrArg₂ rowLogSoftmax (funext fun k => congrArg₂ (· + ·) ?_ ?_) (Fin.ext ?_)
  · unfold iblk3
    rw [View.read_apply]
    show V c main_v64 _ = V c main_v64 _
    refine congrArg (V c main_v64) (funext fun a => Fin.ext ?_)
    match a with
    | ⟨0, _⟩ => show win3_0.index t (0 : Fin 2) * 2000 + 1 * p.val = win3_2.index t (0 : Fin 2) * 2000 + 1 * p.val; rw [e00, e20]
    | ⟨1, _⟩ => show win3_0.index t (1 : Fin 2) * 16 + 1 * k.val = k.val; rw [e01]; omega
  · unfold iblk3
    rw [View.read_apply]
    show V c main_v65 _ = V c main_v65 _
    refine congrArg (V c main_v65) (funext fun a => Fin.ext ?_)
    match a with
    | ⟨0, _⟩ => show win3_1.index t (0 : Fin 2) * 1 + 1 * 0 = 0; rw [e10]
    | ⟨1, _⟩ => show win3_1.index t (1 : Fin 2) * 16 + 1 * k.val = k.val; rw [e11]; omega
  · show q.val = win3_2.index t (1 : Fin 2) * 16 + 1 * q.val; rw [e21]; omega

/-- What point `t` writes back is block `t` of the specification. -/
theorem flushed3 (c : Dev nD) (t : Fin cfg3.N) :
    (dat3 V c).flushed 2 t = ((cfg3.win 2).blk t).view.read (Elt Ideal) (biasLogSoftmax (V c main_v64) (V c main_v65)) := by
  show (cfg3.win 2).cut (grid3.coords t) ((dat3 V c).after 2 t) = _
  rw [after3_2]
  unfold out3_2
  rw [View.canon_unit_zero hz3]
  simp only [View.ld_unit_zero (S := S2000x16) hz3, View.ld_unit_zero (S := S1x16) hz3]
  funext j
  exact point3 V c t j

/-- An index of the output array is in point `t`'s block iff each coordinate is in the block's range on its axis. -/
theorem mem_blk3 (t : Fin cfg3.N) (i : S100000x16.Idx) :
    i ∈ ((cfg3.win 2).blk t).view.set ↔ ∀ a : Fin 2, win3_2.index t a * S2000x16.size a ≤ (i a).val ∧ (i a).val < win3_2.index t a * S2000x16.size a + S2000x16.size a := by
  show i ∈ ((View.whole main_v66).slice (win3_2.rect t)).set ↔ _
  rw [View.set_slice_whole, Rect.mem_set_unit]
  exact Iff.rfl

/-- Row `n` of the output lies in the block of point `n / 2000`: the fifty blocks tile the array. -/
theorem cover3 (i : S100000x16.Idx) : ∃ t : Fin cfg3.N, (cfg3.win 2).flush t = true ∧ i ∈ ((cfg3.win 2).blk t).view.set := by
  have hi0 : (i 0).val < 100000 := (i 0).isLt
  have hi1 : (i 1).val < 16 := (i 1).isLt
  have hN : cfg3.N = 50 := N_3
  have ht : (i 0).val / 2000 < cfg3.N := by rw [hN]; omega
  obtain ⟨-, -, -, -, e20, e21⟩ := idx3 ⟨(i 0).val / 2000, ht⟩
  refine ⟨⟨(i 0).val / 2000, ht⟩, flush3_2 _, ?_⟩
  rw [mem_blk3]
  intro a
  match a with
  | ⟨0, _⟩ =>
    show win3_2.index ⟨(i 0).val / 2000, ht⟩ (0 : Fin 2) * 2000 ≤ (i 0).val ∧ (i 0).val < win3_2.index ⟨(i 0).val / 2000, ht⟩ (0 : Fin 2) * 2000 + 2000
    rw [e20]
    show (i 0).val / 2000 * 2000 ≤ (i 0).val ∧ (i 0).val < (i 0).val / 2000 * 2000 + 2000
    omega
  | ⟨1, _⟩ =>
    show win3_2.index ⟨(i 0).val / 2000, ht⟩ (1 : Fin 2) * 16 ≤ (i 1).val ∧ (i 1).val < win3_2.index ⟨(i 0).val / 2000, ht⟩ (1 : Fin 2) * 16 + 16
    rw [e21]
    omega

/-- The output array after the region is the specification of the arrays the region read. -/
theorem final3 (c : Dev nD) : (dat3 V c).arrAt 2 cfg3.N = biasLogSoftmax (V c main_v64) (V c main_v65) :=
  (dat3 V c).arrAt_eq_of_cover 2 (biasLogSoftmax (V c main_v64) (V c main_v65)) (fun t _ => flushed3 V c t) (cover3)

end Cert.KernelIdeal.Hand

end
-- ==== Proof.KernelHost.lean ====
/-
  What the kernel's host operations leave in the buffers, over the extended reals.

  The first stretch of host operations, before any region, computes from the edge list alone: the source and target node of
  every edge, the weight of every edge and the weight of every node's own row. Nothing later overwrites those four buffers,
  nor the arguments, so every later boundary still holds them. The second stretch aggregates the first dense layer's output
  with those weights and gives the first bias a leading unit axis; the third does the same for the second dense layer's
  output and the second bias. Each stretch's result is the shared aggregation function `aggregate` of the dense layer's
  output and the edge list.
-/
import proofs.«148304_j63161789055109_1_alg».proof.Proof.Gen.KernelIdeal.Frame
import proofs.«148304_j63161789055109_1_alg».proof.Proof.Spec
import Idealize.ShloMosaic.Lib.StableHlo.Run

noncomputable section

namespace Cert.KernelIdeal.Hand

open Idealize.ShloMosaic Idealize.ShloMosaic.TcCoe Idealize.SL.Sem Idealize.ShloMosaic.StableHlo
open Cert.KernelIdeal Cert.KernelIdeal.Gen Cert.GcnSpec

variable (m : (ℓ : Loc nD τ sig) → Buf (Elt Ideal) ℓ) (ρ : Dev nD → PrngReg)

/-- The kernel program's shape facts, as the specification takes them. -/
theorem efK : EdgeFacts := ⟨slices_S2x3200000_S1x3200000_0_0, slices_S2x3200000_S1x3200000_1_0, shapeCasts_S1x3200000_S3200000,
  bcast_S_S3200000, bcast_S_S100000, bcast_S3200000_S3200000x1_0⟩
theorem ffK32 : FeatFacts 32 := ⟨bcast_S_S100000x32, bcast_S3200000x1_S3200000x32_0_1, bcast_S100000_S100000x1_0, bcast_S100000x1_S100000x32_0_1⟩
theorem ffK16 : FeatFacts 16 := ⟨bcast_S_S100000x16, bcast_S3200000x1_S3200000x16_0_1, bcast_S100000_S100000x1_0, bcast_S100000x1_S100000x16_0_1⟩

/-! ## After the first stretch -/

/-- The source node of every edge. -/
theorem W1_v1 (c : Dev nD) : W1 m ρ c (Proc.devRef .tc main_v1) = srcOf efK (m ((c.tc : Thread nD τ).loc main_arg1)) := by
  show StableHlo.after hostOps0 (W0 m ρ c) (Proc.devRef .tc main_v1) = _
  after_results
  rfl
/-- The target node of every edge. -/
theorem W1_v3 (c : Dev nD) : W1 m ρ c (Proc.devRef .tc main_v3) = dstOf efK (m ((c.tc : Thread nD τ).loc main_arg1)) := by
  show StableHlo.after hostOps0 (W0 m ρ c) (Proc.devRef .tc main_v3) = _
  after_results
  rfl
/-- The weight of every edge. -/
theorem W1_v25 (c : Dev nD) : W1 m ρ c (Proc.devRef .tc main_v25)
    = edgeNorm efK scatter_S100000_S3200000x1_S3200000_n_0_0_1 gather_S100000_S3200000x1_S3200000_n_0_n_n_0_1_1 (m ((c.tc : Thread nD τ).loc main_arg1)) := by
  show StableHlo.after hostOps0 (W0 m ρ c) (Proc.devRef .tc main_v25) = _
  after_results_simp
  rfl
/-- The weight of every node's own row. -/
theorem W1_v26 (c : Dev nD) : W1 m ρ c (Proc.devRef .tc main_v26)
    = selfNorm efK scatter_S100000_S3200000x1_S3200000_n_0_0_1 (m ((c.tc : Thread nD τ).loc main_arg1)) := by
  show StableHlo.after hostOps0 (W0 m ρ c) (Proc.devRef .tc main_v26) = _
  after_results
  rfl

/-- The first stretch writes no argument. -/
theorem W1_arg (c : Dev nD) (b : Ref sig .tc) (hb : b = main_arg0 ∨ b = main_arg2 ∨ b = main_arg3 ∨ b = main_arg4 ∨ b = main_arg5) :
    W1 m ρ c (Proc.devRef .tc b) = m ((c.tc : Thread nD τ).loc b) := by
  rcases hb with rfl | rfl | rfl | rfl | rfl <;>
  · show StableHlo.after hostOps0 (W0 m ρ c) _ = _
    after_results

/-! ## What the later boundaries still hold

No region and no later host operation writes the arguments or the four edge-list buffers of the first stretch. -/

set_option maxHeartbeats 4000000 in
/-- The second stretch writes none of them. -/
theorem W3_same (c : Dev nD) (b : Ref sig .tc)
    (hb : b = main_v1 ∨ b = main_v3 ∨ b = main_v25 ∨ b = main_v26 ∨ b = main_arg4 ∨ b = main_arg5) :
    W3 m ρ c (Proc.devRef .tc b) = W2 m ρ c (Proc.devRef .tc b) := by
  rcases hb with rfl | rfl | rfl | rfl | rfl | rfl <;>
  · show StableHlo.after hostOps1 (W2 m ρ c) _ = _
    after_results_simp

/-- After the second stretch (the rectifier region's entry): as after the first. -/
theorem W3_keep (c : Dev nD) (b : Ref sig .tc)
    (hb : b = main_v1 ∨ b = main_v3 ∨ b = main_v25 ∨ b = main_v26 ∨ b = main_arg4 ∨ b = main_arg5) :
    W3 m ρ c (Proc.devRef .tc b) = W1 m ρ c (Proc.devRef .tc b) := by
  refine (W3_same m ρ c b hb).trans ?_
  rcases hb with rfl | rfl | rfl | rfl | rfl | rfl <;> exact W2_of_ne m ρ c _ (by decide)

/-- At the second dense layer's entry: as after the first stretch. -/
theorem W4_keep (c : Dev nD) (b : Ref sig .tc)
    (hb : b = main_v1 ∨ b = main_v3 ∨ b = main_v25 ∨ b = main_v26 ∨ b = main_arg4 ∨ b = main_arg5) :
    W4 m ρ c (Proc.devRef .tc b) = W1 m ρ c (Proc.devRef .tc b) := by
  refine Eq.trans ?_ (W3_keep m ρ c b hb)
  rcases hb with rfl | rfl | rfl | rfl | rfl | rfl <;> exact W4_of_ne m ρ c _ (by decide)

/-- At the second dense layer's exit: as after the first stretch. -/
theorem W5_keep (c : Dev nD) (b : Ref sig .tc)
    (hb : b = main_v1 ∨ b = main_v3 ∨ b = main_v25 ∨ b = main_v26 ∨ b = main_arg5) :
    W5 m ρ c (Proc.devRef .tc b) = W1 m ρ c (Proc.devRef .tc b) := by
  refine Eq.trans ?_ (W4_keep m ρ c b (by rcases hb with h | h | h | h | h <;> simp [h]))
  rcases hb with rfl | rfl | rfl | rfl | rfl <;> exact W5_of_ne m ρ c _ (by decide)

/-! ## After the second stretch -/

set_option maxHeartbeats 4000000 in
/-- The first layer's aggregation: the shared aggregation of what the first dense layer's region left. -/
theorem W3_v44 (c : Dev nD) : W3 m ρ c (Proc.devRef .tc main_v44)
    = aggregate efK 32 ffK32 scatter_S100000_S3200000x1_S3200000_n_0_0_1 gather_S100000_S3200000x1_S3200000_n_0_n_n_0_1_1 gather_S100000x32_S3200000x1_S3200000x32_1_0_n_n_0_1_132 scatter_S100000x32_S3200000x1_S3200000x32_1_0_0_1
        (W2 m ρ c (Proc.devRef .tc main_v27)) (m ((c.tc : Thread nD τ).loc main_arg1)) := by
  show StableHlo.after hostOps1 (W2 m ρ c) (Proc.devRef .tc main_v44) = _
  after_results_simp
  rw [W2_of_ne m ρ c main_v1 (by decide), W2_of_ne m ρ c main_v3 (by decide), W2_of_ne m ρ c main_v25 (by decide),
    W2_of_ne m ρ c main_v26 (by decide), W1_v1, W1_v3, W1_v25, W1_v26]
  rfl

/-- The first bias with a leading unit axis. -/
theorem W3_v45 (c : Dev nD) : W3 m ρ c (Proc.devRef .tc main_v45)
    = shapeCast S1x32 (m ((c.tc : Thread nD τ).loc main_arg3)) shapeCasts_S32_S1x32 := by
  show StableHlo.after hostOps1 (W2 m ρ c) (Proc.devRef .tc main_v45) = _
  after_results
  rw [W2_of_ne m ρ c main_arg3 (by decide), W1_arg m ρ c main_arg3 (by simp)]
  rfl

/-! ## After the third stretch -/

set_option maxHeartbeats 4000000 in
/-- The second layer's aggregation: the shared aggregation of what the second dense layer's region left. -/
theorem W6_v64 (c : Dev nD) : W6 m ρ c (Proc.devRef .tc main_v64)
    = aggregate efK 16 ffK16 scatter_S100000_S3200000x1_S3200000_n_0_0_1 gather_S100000_S3200000x1_S3200000_n_0_n_n_0_1_1 gather_S100000x16_S3200000x1_S3200000x16_1_0_n_n_0_1_116 scatter_S100000x16_S3200000x1_S3200000x16_1_0_0_1
        (W5 m ρ c (Proc.devRef .tc main_v47)) (m ((c.tc : Thread nD τ).loc main_arg1)) := by
  show StableHlo.after hostOps3 (W5 m ρ c) (Proc.devRef .tc main_v64) = _
  after_results_simp
  rw [W5_keep m ρ c main_v1 (by simp), W5_keep m ρ c main_v3 (by simp), W5_keep m ρ c main_v25 (by simp),
    W5_keep m ρ c main_v26 (by simp), W1_v1, W1_v3, W1_v25, W1_v26]
  rfl

/-- The second bias with a leading unit axis. -/
theorem W6_v65 (c : Dev nD) : W6 m ρ c (Proc.devRef .tc main_v65)
    = shapeCast S1x16 (m ((c.tc : Thread nD τ).loc main_arg5)) shapeCasts_S16_S1x16 := by
  show StableHlo.after hostOps3 (W5 m ρ c) (Proc.devRef .tc main_v65) = _
  after_results
  rw [W5_keep m ρ c main_arg5 (by simp), W1_arg m ρ c main_arg5 (by simp)]
  rfl

end Cert.KernelIdeal.Hand

end
-- ==== Proof.KernelValue.lean ====
/-
  The kernel's result array as the network function of its arguments.

  Boundary by boundary: the first dense layer's region leaves `X · W₁`; the second stretch of host operations aggregates it and
  the rectifier's region adds the bias and rectifies; the second dense layer's region multiplies by `W₂`; the third stretch
  aggregates again and the last region adds the bias and takes each row's log-softmax. Each region's array is the region's
  whole-array function of the arrays it read, and those are what the boundary before holds.
-/
import proofs.«148304_j63161789055109_1_alg».proof.Proof.Gen.KernelIdeal.Frame
import proofs.«148304_j63161789055109_1_alg».proof.Proof.SpecNet
import proofs.«148304_j63161789055109_1_alg».proof.Proof.LibColumns
import proofs.«148304_j63161789055109_1_alg».proof.Proof.Region0
import proofs.«148304_j63161789055109_1_alg».proof.Proof.Region1
import proofs.«148304_j63161789055109_1_alg».proof.Proof.Region2
import proofs.«148304_j63161789055109_1_alg».proof.Proof.Region3
import proofs.«148304_j63161789055109_1_alg».proof.Proof.KernelHost
import Idealize.ShloMosaic.Lib.ValueLayout

noncomputable section

namespace Cert.KernelIdeal.Hand

open Idealize.ShloMosaic Idealize.ShloMosaic.TcCoe Idealize.ShloMosaic.ValueIdx Idealize.SL.Sem
open Cert.KernelIdeal Cert.KernelIdeal.Gen Cert.GcnSpec

variable (m : (ℓ : Loc nD τ sig) → Buf (Elt Ideal) ℓ) (ρ : Dev nD → PrngReg)

/-- A length-32 vector given a leading unit axis is the vector as one row. -/
theorem asRow32 (b : FVec Ideal S32 .f32) : shapeCast S1x32 b shapeCasts_S32_S1x32 = asRow b := by
  funext i
  obtain ⟨u, q, rfl⟩ : ∃ (u : Fin 1) (q : Fin 32), i = ix2 u q := ⟨i 0, i 1, eq_ix2 i⟩
  exact shapeCast_a_1a_apply b _ u q

/-- A length-16 vector given a leading unit axis is the vector as one row. -/
theorem asRow16 (b : FVec Ideal S16 .f32) : shapeCast S1x16 b shapeCasts_S16_S1x16 = asRow b := by
  funext i
  obtain ⟨u, q, rfl⟩ : ∃ (u : Fin 1) (q : Fin 16), i = ix2 u q := ⟨i 0, i 1, eq_ix2 i⟩
  exact shapeCast_a_1a_apply b _ u q

/-- After the first dense layer's region: `X · W₁`. -/
theorem W2_v27 (c : Dev nD) : W2 m ρ c (Proc.devRef .tc main_v27)
    = prod1 (m ((c.tc : Thread nD τ).loc main_arg0)) (m ((c.tc : Thread nD τ).loc main_arg2)) := by
  refine (W2_arr m ρ c 2).trans ?_
  refine (final0 (V1 m ρ) c).trans ?_
  show prod1 (W1 m ρ c (Proc.devRef .tc main_arg0)) (W1 m ρ c (Proc.devRef .tc main_arg2)) = _
  rw [W1_arg m ρ c main_arg0 (by simp), W1_arg m ρ c main_arg2 (by simp)]

/-- After the rectifier's region: the first layer's output. -/
theorem W4_v46 (c : Dev nD) : W4 m ρ c (Proc.devRef .tc main_v46)
    = biasRelu (aggregate efK 32 ffK32 scatter_S100000_S3200000x1_S3200000_n_0_0_1 gather_S100000_S3200000x1_S3200000_n_0_n_n_0_1_1 gather_S100000x32_S3200000x1_S3200000x32_1_0_n_n_0_1_132 scatter_S100000x32_S3200000x1_S3200000x32_1_0_0_1
        (prod1 (m ((c.tc : Thread nD τ).loc main_arg0)) (m ((c.tc : Thread nD τ).loc main_arg2))) (m ((c.tc : Thread nD τ).loc main_arg1)))
        (asRow (m ((c.tc : Thread nD τ).loc main_arg3))) := by
  refine (W4_arr m ρ c 2).trans ?_
  refine (final1 (V3 m ρ) c).trans ?_
  show biasRelu (W3 m ρ c (Proc.devRef .tc main_v44)) (W3 m ρ c (Proc.devRef .tc main_v45)) = _
  rw [W3_v44, W3_v45, W2_v27, asRow32]

/-- After the second dense layer's region. -/
theorem W5_v47 (c : Dev nD) : W5 m ρ c (Proc.devRef .tc main_v47)
    = prod2 (W4 m ρ c (Proc.devRef .tc main_v46)) (m ((c.tc : Thread nD τ).loc main_arg4)) := by
  refine (W5_arr m ρ c 2).trans ?_
  refine (final2 (V4 m ρ) c).trans ?_
  show prod2 (W4 m ρ c (Proc.devRef .tc main_v46)) (W4 m ρ c (Proc.devRef .tc main_arg4)) = _
  rw [W4_keep m ρ c main_arg4 (by simp), W1_arg m ρ c main_arg4 (by simp)]

/-- After the last region: the network function of the arguments. -/
theorem kernel_value (c : Dev nD) : W7 m ρ c (Proc.devRef .tc main_v66)
    = gcn efK ffK32 ffK16 scatter_S100000_S3200000x1_S3200000_n_0_0_1 gather_S100000_S3200000x1_S3200000_n_0_n_n_0_1_1 gather_S100000x32_S3200000x1_S3200000x32_1_0_n_n_0_1_132 scatter_S100000x32_S3200000x1_S3200000x32_1_0_0_1 gather_S100000x16_S3200000x1_S3200000x16_1_0_n_n_0_1_116 scatter_S100000x16_S3200000x1_S3200000x16_1_0_0_1
        (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W7_arr m ρ c 2).trans ?_
  refine (final3 (V6 m ρ) c).trans ?_
  show biasLogSoftmax (W6 m ρ c (Proc.devRef .tc main_v64)) (W6 m ρ c (Proc.devRef .tc main_v65)) = _
  rw [W6_v64, W6_v65, W5_v47, W4_v46, asRow16]
  rfl

end Cert.KernelIdeal.Hand

end
-- ==== Proof.LibAfter.lean ====
/-
  The contents after a line of host operations, read in stretches.

  The contents after a list of operations is a left fold of the operations' results, so the contents after two lists
  in a row are the contents after the second from the contents after the first; and the first j operations of a list
  are its first i followed by the next j - i.
-/
import Idealize.ShloMosaic.Lib.StableHlo.Run

noncomputable section

namespace Cert.Lib

open Idealize.ShloMosaic Idealize.ShloMosaic.StableHlo

variable {τ : Topo} {sig : RefSig} {Val : EltTy → Type}

/-- After two lists in a row: after the second, from the contents after the first. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- After the first i + k operations: after the next k, from the contents after the first i. -/
theorem after_take_add (l : List (HloOp τ sig Val)) (i k : ℕ) (V : Valuation τ sig Val) :
    after (l.take (i + k)) V = after ((l.drop i).take k) (after (l.take i) V) := by
  rw [List.take_add, after_append]

end Cert.Lib

end
-- ==== Proof.RefStages.lean ====
/-
  The reference's dense and row-wise stages, over the extended reals, as the specification's functions of their inputs.

  * Its two `dot_general`s are the dense layers `prod1`, `prod2`: at `(n, q)` the sum over the one contracted index.
  * A bias vector spread over a leading unit axis and then over the nodes, added, and the maximum with zero, is `biasRelu`
    of the bias viewed as one row.
  * The bias added likewise, then the reference's log-softmax — each row's maximum folded from -∞ and taken once more against
    -∞, the shifted row, its exponentials summed from zero, the logarithm subtracted — is `biasLogSoftmax`.
-/
import proofs.«148304_j63161789055109_1_alg».proof.ReferenceIdeal
import proofs.«148304_j63161789055109_1_alg».proof.Proof.Gen.ReferenceIdeal
import proofs.«148304_j63161789055109_1_alg».proof.Proof.Spec
import proofs.«148304_j63161789055109_1_alg».proof.Proof.SpecNet
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Hand

open Idealize.ShloMosaic Idealize.ShloMosaic.ValueIdx Cert.ReferenceIdeal Cert.ReferenceIdeal.Gen Cert.GcnSpec

/-! ## The dense layers -/

theorem lhsR1_0 (i : S100000x32.Idx) (q : dot_S100000x512_S512x32_S100000x32_1_0_0_1_n_n.contr.Idx) : (dot_S100000x512_S512x32_S100000x32_1_0_0_1_n_n.lhsIdx i q 0).val = (i 0).val := by
  unfold DotDims.lhsIdx
  rw [dif_neg (show ¬(0 : Fin S100000x512.rank) ∈ dot_S100000x512_S512x32_S100000x32_1_0_0_1_n_n.lhsBatch by decide), dif_pos (show (0 : Fin S100000x512.rank) ∈ dot_S100000x512_S512x32_S100000x32_1_0_0_1_n_n.lhsNonContracting by decide)]
  rfl
theorem lhsR1_1 (i : S100000x32.Idx) (q : dot_S100000x512_S512x32_S100000x32_1_0_0_1_n_n.contr.Idx) : (dot_S100000x512_S512x32_S100000x32_1_0_0_1_n_n.lhsIdx i q 1).val = (q ⟨0, by decide⟩).val :=
  dot_S100000x512_S512x32_S100000x32_1_0_0_1_n_n.lhsIdx_val_of_single rfl i q
theorem rhsR1_0 (i : S100000x32.Idx) (q : dot_S100000x512_S512x32_S100000x32_1_0_0_1_n_n.contr.Idx) : (dot_S100000x512_S512x32_S100000x32_1_0_0_1_n_n.rhsIdx i q 0).val = (q ⟨0, by decide⟩).val :=
  dot_S100000x512_S512x32_S100000x32_1_0_0_1_n_n.rhsIdx_val_of_single rfl i q
theorem rhsR1_1 (i : S100000x32.Idx) (q : dot_S100000x512_S512x32_S100000x32_1_0_0_1_n_n.contr.Idx) : (dot_S100000x512_S512x32_S100000x32_1_0_0_1_n_n.rhsIdx i q 1).val = (i 1).val := by
  unfold DotDims.rhsIdx
  rw [dif_neg (show ¬(1 : Fin S512x32.rank) ∈ dot_S100000x512_S512x32_S100000x32_1_0_0_1_n_n.rhsBatch by decide), dif_pos (show (1 : Fin S512x32.rank) ∈ dot_S100000x512_S512x32_S100000x32_1_0_0_1_n_n.rhsNonContracting by decide)]
  rfl

theorem lhsR2_0 (i : S100000x16.Idx) (q : dot_S100000x32_S32x16_S100000x16_1_0_0_1_n_n.contr.Idx) : (dot_S100000x32_S32x16_S100000x16_1_0_0_1_n_n.lhsIdx i q 0).val = (i 0).val := by
  unfold DotDims.lhsIdx
  rw [dif_neg (show ¬(0 : Fin S100000x32.rank) ∈ dot_S100000x32_S32x16_S100000x16_1_0_0_1_n_n.lhsBatch by decide), dif_pos (show (0 : Fin S100000x32.rank) ∈ dot_S100000x32_S32x16_S100000x16_1_0_0_1_n_n.lhsNonContracting by decide)]
  rfl
theorem lhsR2_1 (i : S100000x16.Idx) (q : dot_S100000x32_S32x16_S100000x16_1_0_0_1_n_n.contr.Idx) : (dot_S100000x32_S32x16_S100000x16_1_0_0_1_n_n.lhsIdx i q 1).val = (q ⟨0, by decide⟩).val :=
  dot_S100000x32_S32x16_S100000x16_1_0_0_1_n_n.lhsIdx_val_of_single rfl i q
theorem rhsR2_0 (i : S100000x16.Idx) (q : dot_S100000x32_S32x16_S100000x16_1_0_0_1_n_n.contr.Idx) : (dot_S100000x32_S32x16_S100000x16_1_0_0_1_n_n.rhsIdx i q 0).val = (q ⟨0, by decide⟩).val :=
  dot_S100000x32_S32x16_S100000x16_1_0_0_1_n_n.rhsIdx_val_of_single rfl i q
theorem rhsR2_1 (i : S100000x16.Idx) (q : dot_S100000x32_S32x16_S100000x16_1_0_0_1_n_n.contr.Idx) : (dot_S100000x32_S32x16_S100000x16_1_0_0_1_n_n.rhsIdx i q 1).val = (i 1).val := by
  unfold DotDims.rhsIdx
  rw [dif_neg (show ¬(1 : Fin S32x16.rank) ∈ dot_S100000x32_S32x16_S100000x16_1_0_0_1_n_n.rhsBatch by decide), dif_pos (show (1 : Fin S32x16.rank) ∈ dot_S100000x32_S32x16_S100000x16_1_0_0_1_n_n.rhsNonContracting by decide)]
  rfl

/-- The reference's first `dot_general` is the first dense layer. -/
theorem dot1_eq (X : FVec Ideal S100000x512 .f32) (W : FVec Ideal S512x32 .f32) :
    Host.dotGeneral dot_S100000x512_S512x32_S100000x32_1_0_0_1_n_n none X W = prod1 X W := by
  funext i
  obtain ⟨n, q, rfl⟩ : ∃ (n : Fin 100000) (q : Fin 32), i = ix2 n q := ⟨i 0, i 1, eq_ix2 i⟩
  simp only [Host.dotGeneral]
  rw [Ideal.dotGeneral_apply, ← Equiv.sum_comp (contrEquiv1 dot_S100000x512_S512x32_S100000x32_1_0_0_1_n_n 512 rfl rfl).symm]
  unfold prod1
  refine Finset.sum_congr rfl fun k _ => ?_
  have hk := contrEquiv1_symm_val dot_S100000x512_S512x32_S100000x32_1_0_0_1_n_n 512 rfl rfl k
  have el : dot_S100000x512_S512x32_S100000x32_1_0_0_1_n_n.lhsIdx (ix2 n q) ((contrEquiv1 dot_S100000x512_S512x32_S100000x32_1_0_0_1_n_n 512 rfl rfl).symm k) = ix2 n k := funext fun a => Fin.ext (by
    match a with
    | ⟨0, _⟩ => exact lhsR1_0 _ _
    | ⟨1, _⟩ => exact (lhsR1_1 _ _).trans hk)
  have er : dot_S100000x512_S512x32_S100000x32_1_0_0_1_n_n.rhsIdx (ix2 n q) ((contrEquiv1 dot_S100000x512_S512x32_S100000x32_1_0_0_1_n_n 512 rfl rfl).symm k) = ix2 k q := funext fun a => Fin.ext (by
    match a with
    | ⟨0, _⟩ => exact (rhsR1_0 _ _).trans hk
    | ⟨1, _⟩ => exact rhsR1_1 _ _)
  rw [el, er]

/-- The reference's second `dot_general` is the second dense layer. -/
theorem dot2_eq (X : FVec Ideal S100000x32 .f32) (W : FVec Ideal S32x16 .f32) :
    Host.dotGeneral dot_S100000x32_S32x16_S100000x16_1_0_0_1_n_n none X W = prod2 X W := by
  funext i
  obtain ⟨n, q, rfl⟩ : ∃ (n : Fin 100000) (q : Fin 16), i = ix2 n q := ⟨i 0, i 1, eq_ix2 i⟩
  simp only [Host.dotGeneral]
  rw [Ideal.dotGeneral_apply, ← Equiv.sum_comp (contrEquiv1 dot_S100000x32_S32x16_S100000x16_1_0_0_1_n_n 32 rfl rfl).symm]
  unfold prod2
  refine Finset.sum_congr rfl fun k _ => ?_
  have hk := contrEquiv1_symm_val dot_S100000x32_S32x16_S100000x16_1_0_0_1_n_n 32 rfl rfl k
  have el : dot_S100000x32_S32x16_S100000x16_1_0_0_1_n_n.lhsIdx (ix2 n q) ((contrEquiv1 dot_S100000x32_S32x16_S100000x16_1_0_0_1_n_n 32 rfl rfl).symm k) = ix2 n k := funext fun a => Fin.ext (by
    match a with
    | ⟨0, _⟩ => exact lhsR2_0 _ _
    | ⟨1, _⟩ => exact (lhsR2_1 _ _).trans hk)
  have er : dot_S100000x32_S32x16_S100000x16_1_0_0_1_n_n.rhsIdx (ix2 n q) ((contrEquiv1 dot_S100000x32_S32x16_S100000x16_1_0_0_1_n_n 32 rfl rfl).symm k) = ix2 k q := funext fun a => Fin.ext (by
    match a with
    | ⟨0, _⟩ => exact (rhsR2_0 _ _).trans hk
    | ⟨1, _⟩ => exact rhsR2_1 _ _)
  rw [el, er]

/-! ## A bias vector spread over the nodes -/

/-- A length-32 vector given a leading unit axis and then spread over the nodes reads, at `(n, q)`, the vector at `q`. -/
theorem bias32_apply (b : FVec Ideal S32 .f32) (n : Fin 100000) (q : Fin 32) :
    broadcastInDim S100000x32 ![0, 1] bcast_S1x32_S100000x32_0_1 (broadcastInDim S1x32 ![1] bcast_S32_S1x32_1 b) (ix2 n q) = b (ix1 q) := by
  refine (broadcastInDim_apply _ _ _ (ix2 n q) (ix2 (0 : Fin 1) q) fun a => ?_).trans ?_
  · match a with
    | ⟨0, _⟩ => rfl
    | ⟨1, _⟩ => rfl
  · refine broadcastInDim_apply _ _ b (ix2 (0 : Fin 1) q) (ix1 q) fun a => ?_
    match a with
    | ⟨0, _⟩ => rfl

/-- A length-16 vector given a leading unit axis and then spread over the nodes reads, at `(n, q)`, the vector at `q`. -/
theorem bias16_apply (b : FVec Ideal S16 .f32) (n : Fin 100000) (q : Fin 16) :
    broadcastInDim S100000x16 ![0, 1] bcast_S1x16_S100000x16_0_1 (broadcastInDim S1x16 ![1] bcast_S16_S1x16_1 b) (ix2 n q) = b (ix1 q) := by
  refine (broadcastInDim_apply _ _ _ (ix2 n q) (ix2 (0 : Fin 1) q) fun a => ?_).trans ?_
  · match a with
    | ⟨0, _⟩ => rfl
    | ⟨1, _⟩ => rfl
  · refine broadcastInDim_apply _ _ b (ix2 (0 : Fin 1) q) (ix1 q) fun a => ?_
    match a with
    | ⟨0, _⟩ => rfl

/-! ## Bias and rectifier -/

/-- The reference's bias addition and rectifier are `biasRelu` of the bias as one row. -/
theorem biasRelu_eq (A : FVec Ideal S100000x32 .f32) (b : FVec Ideal S32 .f32) :
    maximumf (addf A (broadcastInDim S100000x32 ![0, 1] bcast_S1x32_S100000x32_0_1 (broadcastInDim S1x32 ![1] bcast_S32_S1x32_1 b)))
        (broadcastInDim S100000x32 ![] bcast_S_S100000x32 (constant S_ .f32 0x00000000#32))
      = biasRelu A (asRow b) := by
  funext i
  obtain ⟨n, q, rfl⟩ : ∃ (n : Fin 100000) (q : Fin 32), i = ix2 n q := ⟨i 0, i 1, eq_ix2 i⟩
  rw [maximumf_apply, addf_apply, bias32_apply]
  rfl

/-! ## Bias and log-softmax -/

/-- A per-node value given a trailing unit axis and spread along the sixteen columns reads, at `(n, q)`, the value at `n`. -/
theorem perNode_apply (v : FVec Ideal S100000 .f32) (n : Fin 100000) (q : Fin 16) :
    broadcastInDim S100000x16 ![0, 1] bcast_S100000x1_S100000x16_0_1 (broadcastInDim S100000x1 ![0] bcast_S100000_S100000x1_0 v) (ix2 n q) = v (ix1 n) := by
  refine (broadcastInDim_apply _ _ _ (ix2 n q) (ix2 n (0 : Fin 1)) fun a => ?_).trans ?_
  · match a with
    | ⟨0, _⟩ => rfl
    | ⟨1, _⟩ => rfl
  · refine broadcastInDim_apply _ _ v (ix2 n (0 : Fin 1)) (ix1 n) fun a => ?_
    match a with
    | ⟨0, _⟩ => rfl

/-- The same with a pointwise function applied on the column in between. -/
theorem perNode_log_apply (v : FVec Ideal S100000 .f32) (n : Fin 100000) (q : Fin 16) :
    broadcastInDim S100000x16 ![0, 1] bcast_S100000x1_S100000x16_0_1 (Host.log (broadcastInDim S100000x1 ![0] bcast_S100000_S100000x1_0 v)) (ix2 n q)
      = Ideal.log (v (ix1 n)) := by
  refine (broadcastInDim_apply _ _ _ (ix2 n q) (ix2 n (0 : Fin 1)) fun a => ?_).trans ?_
  · match a with
    | ⟨0, _⟩ => rfl
    | ⟨1, _⟩ => rfl
  · show Ideal.log (broadcastInDim S100000x1 ![0] bcast_S100000_S100000x1_0 v (ix2 n (0 : Fin 1))) = _
    refine congrArg Ideal.log (broadcastInDim_apply _ _ v (ix2 n (0 : Fin 1)) (ix1 n) fun a => ?_)
    match a with
    | ⟨0, _⟩ => rfl

/-- The reference's row maximum from -∞: the fold of `max` over the row. -/
theorem rowMax_ref (Y : FVec Ideal S100000x16 .f32) (n : Fin 100000) :
    Host.reduce FloatOps.maximumf Y (constant S_ .f32 0xFF800000#32) reducesTo_S100000x16_S100000_d1 h_S_ (ix1 n)
      = (Finset.univ : Finset (Fin 16)).fold max (Ideal.ofBits .f32 0xFF800000#32) (fun k => Y (ix2 n k)) := by
  refine (Host.reduce_eq_fold_single FloatOps.maximumf Y _ reducesTo_S100000x16_S100000_d1 (by decide) h_S_ (ix1 n)).trans ?_
  refine congrArg (fun f => (Finset.univ : Finset (Fin 16)).fold max (Ideal.ofBits .f32 0xFF800000#32) f) ?_
  funext k
  exact congrArg Y (funext fun a => Fin.ext (by match a with | ⟨0, _⟩ => rfl | ⟨1, _⟩ => rfl))

/-- The reference's row sum from zero: the sum over the row. -/
theorem rowSum_ref (Y : FVec Ideal S100000x16 .f32) (n : Fin 100000) :
    Host.reduceAdd Y (constant S_ .f32 0x00000000#32) reducesTo_S100000x16_S100000_d1 h_S_ (ix1 n) = ∑ k : Fin 16, Y (ix2 n k) := by
  simp only [Host.reduceAdd, Ideal.hostReduceAdd_def]
  rw [Ideal.hostReduceAdd_single reducesTo_S100000x16_S100000_d1 (by decide)]
  show Ideal.ofBits .f32 0x00000000#32 + _ = _
  rw [Ideal.ofBits_zero_f32, zero_add]
  refine Finset.sum_congr rfl fun k _ => ?_
  exact congrArg Y (funext fun a => Fin.ext (by match a with | ⟨0, _⟩ => rfl | ⟨1, _⟩ => rfl))

/-- The reference's bias addition and log-softmax are `biasLogSoftmax` of the bias as one row. -/
theorem biasLogSoftmax_eq (A : FVec Ideal S100000x16 .f32) (b : FVec Ideal S16 .f32) :
    subf (subf (addf A (broadcastInDim S100000x16 ![0, 1] bcast_S1x16_S100000x16_0_1 (broadcastInDim S1x16 ![1] bcast_S16_S1x16_1 b))) (broadcastInDim S100000x16 ![0, 1] bcast_S100000x1_S100000x16_0_1 (broadcastInDim S100000x1 ![0] bcast_S100000_S100000x1_0 (maximumf (broadcastInDim S100000 ![] bcast_S_S100000 (constant S_ .f32 0xFF800000#32)) (Host.reduce FloatOps.maximumf (addf A (broadcastInDim S100000x16 ![0, 1] bcast_S1x16_S100000x16_0_1 (broadcastInDim S1x16 ![1] bcast_S16_S1x16_1 b))) (constant S_ .f32 0xFF800000#32) reducesTo_S100000x16_S100000_d1 h_S_))))) (broadcastInDim S100000x16 ![0, 1] bcast_S100000x1_S100000x16_0_1 (Host.log (broadcastInDim S100000x1 ![0] bcast_S100000_S100000x1_0 (Host.reduceAdd (Host.exp (subf (addf A (broadcastInDim S100000x16 ![0, 1] bcast_S1x16_S100000x16_0_1 (broadcastInDim S1x16 ![1] bcast_S16_S1x16_1 b))) (broadcastInDim S100000x16 ![0, 1] bcast_S100000x1_S100000x16_0_1 (broadcastInDim S100000x1 ![0] bcast_S100000_S100000x1_0 (maximumf (broadcastInDim S100000 ![] bcast_S_S100000 (constant S_ .f32 0xFF800000#32)) (Host.reduce FloatOps.maximumf (addf A (broadcastInDim S100000x16 ![0, 1] bcast_S1x16_S100000x16_0_1 (broadcastInDim S1x16 ![1] bcast_S16_S1x16_1 b))) (constant S_ .f32 0xFF800000#32) reducesTo_S100000x16_S100000_d1 h_S_)))))) (constant S_ .f32 0x00000000#32) reducesTo_S100000x16_S100000_d1 h_S_))))
      = biasLogSoftmax A (asRow b) := by
  funext i
  obtain ⟨n, q, rfl⟩ : ∃ (n : Fin 100000) (q : Fin 16), i = ix2 n q := ⟨i 0, i 1, eq_ix2 i⟩
  have hrow : ∀ k : Fin 16, (addf A (broadcastInDim S100000x16 ![0, 1] bcast_S1x16_S100000x16_0_1 (broadcastInDim S1x16 ![1] bcast_S16_S1x16_1 b))) (ix2 n k) = A (ix2 n k) + asRow b (ix2 (0 : Fin 1) k) := fun k => by
    rw [addf_apply, bias16_apply]; rfl
  have hmx : (maximumf (broadcastInDim S100000 ![] bcast_S_S100000 (constant S_ .f32 0xFF800000#32)) (Host.reduce FloatOps.maximumf (addf A (broadcastInDim S100000x16 ![0, 1] bcast_S1x16_S100000x16_0_1 (broadcastInDim S1x16 ![1] bcast_S16_S1x16_1 b))) (constant S_ .f32 0xFF800000#32) reducesTo_S100000x16_S100000_d1 h_S_)) (ix1 n) = rowMax (fun k => A (ix2 n k) + asRow b (ix2 (0 : Fin 1) k)) := by
    rw [maximumf_apply, rowMax_ref]
    simp only [hrow]
    rfl
  have hsh : ∀ k : Fin 16, (subf (addf A (broadcastInDim S100000x16 ![0, 1] bcast_S1x16_S100000x16_0_1 (broadcastInDim S1x16 ![1] bcast_S16_S1x16_1 b))) (broadcastInDim S100000x16 ![0, 1] bcast_S100000x1_S100000x16_0_1 (broadcastInDim S100000x1 ![0] bcast_S100000_S100000x1_0 (maximumf (broadcastInDim S100000 ![] bcast_S_S100000 (constant S_ .f32 0xFF800000#32)) (Host.reduce FloatOps.maximumf (addf A (broadcastInDim S100000x16 ![0, 1] bcast_S1x16_S100000x16_0_1 (broadcastInDim S1x16 ![1] bcast_S16_S1x16_1 b))) (constant S_ .f32 0xFF800000#32) reducesTo_S100000x16_S100000_d1 h_S_))))) (ix2 n k)
      = (A (ix2 n k) + asRow b (ix2 (0 : Fin 1) k)) - rowMax (fun k => A (ix2 n k) + asRow b (ix2 (0 : Fin 1) k)) := fun k => by
    rw [subf_apply, perNode_apply, hmx, hrow]
  rw [subf_apply, perNode_log_apply, rowSum_ref, hsh]
  unfold biasLogSoftmax rowLogSoftmax
  refine congrArg (fun s => _ - Ideal.log s) (Finset.sum_congr rfl fun k _ => ?_)
  show Ideal.exp _ = _
  rw [hsh]

end Cert.ReferenceIdeal.Hand

end
-- ==== Proof.RefValue.lean ====
/-
  The reference's result as the network function of its arguments.

  The reference is one line of 134 host operations, read here in six stretches: the first dense layer; the first aggregation;
  bias and rectifier; the second dense layer; the second aggregation; bias and log-softmax. The contents after the whole line
  are the contents after each stretch from the contents after the one before. Each stretch's result is a function of the
  one buffer the stretch before it produced and of arguments, which no operation writes: the dense layers and the row-wise
  stages by the stage lemmas, the two aggregations by unfolding the shared aggregation function.
-/
import proofs.«148304_j63161789055109_1_alg».proof.Proof.RefRun
import proofs.«148304_j63161789055109_1_alg».proof.Proof.LibAfter
import proofs.«148304_j63161789055109_1_alg».proof.Proof.SpecNet
import proofs.«148304_j63161789055109_1_alg».proof.Proof.RefStages

noncomputable section

namespace Cert.ReferenceIdeal.Hand

open Idealize.ShloMosaic Idealize.ShloMosaic.TcCoe Idealize.ShloMosaic.StableHlo Idealize.SL.Sem
open Cert.ReferenceIdeal Cert.ReferenceIdeal.Gen Cert.ReferenceIdeal.Value Cert.GcnSpec Cert.Lib

/-- The reference program's shape facts, as the specification takes them. -/
theorem efR : EdgeFacts := ⟨slices_S2x3200000_S1x3200000_0_0, slices_S2x3200000_S1x3200000_1_0, shapeCasts_S1x3200000_S3200000,
  bcast_S_S3200000, bcast_S_S100000, bcast_S3200000_S3200000x1_0⟩
theorem ffR32 : FeatFacts 32 := ⟨bcast_S_S100000x32, bcast_S3200000x1_S3200000x32_0_1, bcast_S100000_S100000x1_0, bcast_S100000x1_S100000x32_0_1⟩
theorem ffR16 : FeatFacts 16 := ⟨bcast_S_S100000x16, bcast_S3200000x1_S3200000x16_0_1, bcast_S100000_S100000x1_0, bcast_S100000x1_S100000x16_0_1⟩

/-- Contents moved to a typed reference's buffer type and back are the contents. -/
theorem ofBuf_toBuf {T : BufTy} (x : TRef sig T) (v : T.Contents (Elt Ideal)) : x.ofBuf (x.toBuf v) = v := by
  unfold TRef.ofBuf TRef.toBuf
  simp

variable (V : Valuation τ sig (Elt Ideal))

/-! ## The six stretches -/

set_option maxHeartbeats 4000000 in
/-- The first dense layer. -/
theorem stretchA : after ((ops (F := Ideal)).take 1) V (Proc.devRef .tc main_v0)
    = prod1 (V (Proc.devRef .tc main_arg0)) (V (Proc.devRef .tc main_arg2)) := by
  simp only [ops, List.take_succ_cons, List.take_zero]
  after_results
  exact dot1_eq _ _

set_option maxHeartbeats 8000000 in
/-- The first aggregation. -/
theorem stretchB : after (((ops (F := Ideal)).drop 1).take 54) V (Proc.devRef .tc main_v44)
    = aggregate efR 32 ffR32 scatter_S100000_S3200000x1_S3200000_n_0_0_1 gather_S100000_S3200000x1_S3200000_n_0_n_n_0_1_1 gather_S100000x32_S3200000x1_S3200000x32_1_0_n_n_0_1_132 scatter_S100000x32_S3200000x1_S3200000x32_1_0_0_1 (V (Proc.devRef .tc main_v0)) (V (Proc.devRef .tc main_arg1)) := by
  simp only [ops, List.drop_succ_cons, List.drop_zero, List.take_succ_cons, List.take_zero]
  after_results_simp
  rfl

set_option maxHeartbeats 4000000 in
/-- Bias and rectifier. -/
theorem stretchC : after (((ops (F := Ideal)).drop 55).take 6) V (Proc.devRef .tc main_v48)
    = biasRelu (V (Proc.devRef .tc main_v44)) (asRow (V (Proc.devRef .tc main_arg3))) := by
  simp only [ops, List.drop_succ_cons, List.drop_zero, List.take_succ_cons, List.take_zero]
  after_results
  simp only [ofBuf_toBuf]
  exact biasRelu_eq _ _

set_option maxHeartbeats 4000000 in
/-- The second dense layer. -/
theorem stretchD : after (((ops (F := Ideal)).drop 61).take 1) V (Proc.devRef .tc main_v49)
    = prod2 (V (Proc.devRef .tc main_v48)) (V (Proc.devRef .tc main_arg4)) := by
  simp only [ops, List.drop_succ_cons, List.drop_zero, List.take_succ_cons, List.take_zero]
  after_results
  exact dot2_eq _ _

set_option maxHeartbeats 8000000 in
/-- The second aggregation. -/
theorem stretchE : after (((ops (F := Ideal)).drop 62).take 54) V (Proc.devRef .tc main_v93)
    = aggregate efR 16 ffR16 scatter_S100000_S3200000x1_S3200000_n_0_0_1 gather_S100000_S3200000x1_S3200000_n_0_n_n_0_1_1 gather_S100000x16_S3200000x1_S3200000x16_1_0_n_n_0_1_116 scatter_S100000x16_S3200000x1_S3200000x16_1_0_0_1 (V (Proc.devRef .tc main_v49)) (V (Proc.devRef .tc main_arg1)) := by
  simp only [ops, List.drop_succ_cons, List.drop_zero, List.take_succ_cons, List.take_zero]
  after_results_simp
  rfl

set_option maxHeartbeats 4000000 in
/-- Bias and log-softmax. -/
theorem stretchG : after ((ops (F := Ideal)).drop 116) V (Proc.devRef .tc main_v97)
    = biasLogSoftmax (V (Proc.devRef .tc main_v93)) (asRow (V (Proc.devRef .tc main_arg5))) := by
  simp only [ops, List.drop_succ_cons, List.drop_zero]
  after_results
  simp only [ofBuf_toBuf]
  exact biasLogSoftmax_eq _ _

/-! ## No operation writes an argument -/

set_option maxHeartbeats 16000000 in
set_option maxRecDepth 8192 in
theorem no_write (b : Ref sig .tc)
    (hb : b = main_arg0 ∨ b = main_arg1 ∨ b = main_arg2 ∨ b = main_arg3 ∨ b = main_arg4 ∨ b = main_arg5) :
    ∀ op ∈ (ops (F := Ideal)), (Proc.devRef .tc b : DevRef τ sig) ∉ op.writes := by
  rcases hb with rfl | rfl | rfl | rfl | rfl | rfl <;>
  · refine List.forall_iff_forall_mem.mp ?_
    simp only [ops, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)

/-- So after any part of the line an argument's buffer holds what it held before. -/
theorem arg_kept (l : List (HloOp τ sig (Elt Ideal))) (hl : ∀ op ∈ l, op ∈ (ops (F := Ideal))) (b : Ref sig .tc)
    (hb : b = main_arg0 ∨ b = main_arg1 ∨ b = main_arg2 ∨ b = main_arg3 ∨ b = main_arg4 ∨ b = main_arg5) :
    after l V (Proc.devRef .tc b) = V (Proc.devRef .tc b) :=
  after_of_forall_not_mem l V fun op h => no_write b hb op (hl op h)

/-! ## The whole line -/

/-- The reference's result buffer after its line of operations, from any contents `W`: the network function of the
    arguments as `W` holds them. -/
theorem ref_value (W : Valuation τ sig (Elt Ideal)) : after (ops (F := Ideal)) W (Proc.devRef .tc main_v97)
    = gcn efR ffR32 ffR16 scatter_S100000_S3200000x1_S3200000_n_0_0_1 gather_S100000_S3200000x1_S3200000_n_0_n_n_0_1_1 gather_S100000x32_S3200000x1_S3200000x32_1_0_n_n_0_1_132 scatter_S100000x32_S3200000x1_S3200000x32_1_0_0_1 gather_S100000x16_S3200000x1_S3200000x16_1_0_n_n_0_1_116 scatter_S100000x16_S3200000x1_S3200000x16_1_0_0_1
        (W (Proc.devRef .tc main_arg0)) (W (Proc.devRef .tc main_arg1)) (W (Proc.devRef .tc main_arg2)) (W (Proc.devRef .tc main_arg3)) (W (Proc.devRef .tc main_arg4)) (W (Proc.devRef .tc main_arg5)) := by
  have hk : ∀ (i : ℕ) (b : Ref sig .tc)
      (hb : b = main_arg0 ∨ b = main_arg1 ∨ b = main_arg2 ∨ b = main_arg3 ∨ b = main_arg4 ∨ b = main_arg5),
      after ((ops (F := Ideal)).take i) W (Proc.devRef .tc b) = W (Proc.devRef .tc b) :=
    fun i b hb => arg_kept W _ (fun op h => List.mem_of_mem_take h) b hb
  have e0 : after (ops (F := Ideal)) W = after ((ops (F := Ideal)).drop 116) (after ((ops (F := Ideal)).take 116) W) := by
    rw [← StableHlo.after_append, List.take_append_drop]
  have e1 : after ((ops (F := Ideal)).take 116) W = after (((ops (F := Ideal)).drop 62).take 54) (after ((ops (F := Ideal)).take 62) W) :=
    after_take_add ops 62 54 W
  have e2 : after ((ops (F := Ideal)).take 62) W = after (((ops (F := Ideal)).drop 61).take 1) (after ((ops (F := Ideal)).take 61) W) :=
    after_take_add ops 61 1 W
  have e3 : after ((ops (F := Ideal)).take 61) W = after (((ops (F := Ideal)).drop 55).take 6) (after ((ops (F := Ideal)).take 55) W) :=
    after_take_add ops 55 6 W
  have e4 : after ((ops (F := Ideal)).take 55) W = after (((ops (F := Ideal)).drop 1).take 54) (after ((ops (F := Ideal)).take 1) W) :=
    after_take_add ops 1 54 W
  rw [e0, stretchG, hk 116 main_arg5 (by simp)]
  rw [e1, stretchE, hk 62 main_arg1 (by simp)]
  rw [e2, stretchD, hk 61 main_arg4 (by simp)]
  rw [e3, stretchC, hk 55 main_arg3 (by simp)]
  rw [e4, stretchB, hk 1 main_arg1 (by simp), stretchA]
  rfl

end Cert.ReferenceIdeal.Hand

end
-- ==== Proof.lean ====
/-
  The certificate of a two-layer graph convolution with a closing log-softmax: the kernel program (four tiled regions — two
  dense layers, bias with rectifier, bias with log-softmax — among host operations that aggregate along the edges) against the
  reference (one line of host operations).

  Over the extended reals both programs compute the same function of the six arguments,
  `log_softmax (Â · relu (Â · X W₁ + b₁) · W₂ + b₂)`, where `Â ·` is the normalized neighbour aggregation:
  * the kernel's dense regions store, entry by entry, the sum over the contracted index that the reference's `dot_general` is
    (rounding the operands to a narrower format is the identity there, and the product accumulates into zero);
  * the bias row is added and the maximum with zero taken in both, entry by entry;
  * the aggregation is the same chain of scatter-adds, gathers and products in both programs, applied to equal inputs, and is
    never opened;
  * each row's log-softmax is, in both, the row shifted by its maximum minus the logarithm of the sum of the shifted row's
    exponentials, the maximum folded from -∞ and the sum from zero.
  No law of arithmetic is needed beyond `0 + s = s`, so the precondition is not opened. The idealization rewrote no operation,
  so that claim is trivial; the three frames are the programs' runs with the results dropped.
-/
import proofs.«148304_j63161789055109_1_alg».proof.Defs
import proofs.«148304_j63161789055109_1_alg».proof.Proof.Gen.Kernel
import proofs.«148304_j63161789055109_1_alg».proof.Proof.Gen.Kernel.Frame
import proofs.«148304_j63161789055109_1_alg».proof.Proof.Gen.KernelIdeal
import proofs.«148304_j63161789055109_1_alg».proof.Proof.Gen.KernelIdeal.Frame
import proofs.«148304_j63161789055109_1_alg».proof.Proof.Gen.ReferenceIdeal
import proofs.«148304_j63161789055109_1_alg».proof.Proof.Gen.Pre_finite_inputs
import proofs.«148304_j63161789055109_1_alg».proof.Proof.KernelRun
import proofs.«148304_j63161789055109_1_alg».proof.Proof.KernelValue
import proofs.«148304_j63161789055109_1_alg».proof.Proof.RefRun
import proofs.«148304_j63161789055109_1_alg».proof.Proof.RefValue
import Idealize.ShloMosaic.Adequacy
import Idealize.ShloMosaic.Init

noncomputable section

namespace Cert.Proof

open Idealize.ShloMosaic Idealize.ShloMosaic.TcCoe Idealize.ShloMosaic.StableHlo Idealize.SL.Sem Cert.GcnSpec

/-! ## The two programs' dimension records are the same records -/
theorem rec0_eq : Cert.ReferenceIdeal.scatter_S100000_S3200000x1_S3200000_n_0_0_1 = Cert.KernelIdeal.scatter_S100000_S3200000x1_S3200000_n_0_0_1 := rfl
theorem rec1_eq : Cert.ReferenceIdeal.gather_S100000_S3200000x1_S3200000_n_0_n_n_0_1_1 = Cert.KernelIdeal.gather_S100000_S3200000x1_S3200000_n_0_n_n_0_1_1 := rfl
theorem rec2_eq : Cert.ReferenceIdeal.gather_S100000x32_S3200000x1_S3200000x32_1_0_n_n_0_1_132 = Cert.KernelIdeal.gather_S100000x32_S3200000x1_S3200000x32_1_0_n_n_0_1_132 := rfl
theorem rec3_eq : Cert.ReferenceIdeal.scatter_S100000x32_S3200000x1_S3200000x32_1_0_0_1 = Cert.KernelIdeal.scatter_S100000x32_S3200000x1_S3200000x32_1_0_0_1 := rfl
theorem rec4_eq : Cert.ReferenceIdeal.gather_S100000x16_S3200000x1_S3200000x16_1_0_n_n_0_1_116 = Cert.KernelIdeal.gather_S100000x16_S3200000x1_S3200000x16_1_0_n_n_0_1_116 := rfl
theorem rec5_eq : Cert.ReferenceIdeal.scatter_S100000x16_S3200000x1_S3200000x16_1_0_0_1 = Cert.KernelIdeal.scatter_S100000x16_S3200000x1_S3200000x16_1_0_0_1 := rfl

/-! ## The claims -/

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result array at the network function of the (agreeing) arguments. -/
theorem algebraic : Cert.algebraic_KernelIdeal_ReferenceIdeal := by
  intro m ρ m' ρ' _ hagree
  refine ⟨fun c => gcn Cert.KernelIdeal.Hand.efK Cert.KernelIdeal.Hand.ffK32 Cert.KernelIdeal.Hand.ffK16
      Cert.KernelIdeal.scatter_S100000_S3200000x1_S3200000_n_0_0_1 Cert.KernelIdeal.gather_S100000_S3200000x1_S3200000_n_0_n_n_0_1_1 Cert.KernelIdeal.gather_S100000x32_S3200000x1_S3200000x32_1_0_n_n_0_1_132 Cert.KernelIdeal.scatter_S100000x32_S3200000x1_S3200000x32_1_0_0_1 Cert.KernelIdeal.gather_S100000x16_S3200000x1_S3200000x16_1_0_n_n_0_1_116 Cert.KernelIdeal.scatter_S100000x16_S3200000x1_S3200000x16_1_0_0_1
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Hand.kernel_value m ρ c), (h c).2⟩) (Cert.KernelIdeal.Hand.run_named m ρ)
  · refine (θ_run Cert.ReferenceIdeal.defs _ _).mono (fun r h c => ⟨(h c).1.trans ?_, (h c).2⟩)
      (Cert.ReferenceIdeal.Value.run (F := Ideal) m' ρ')
    rw [Cert.ReferenceIdeal.Hand.ref_value]
    show gcn Cert.ReferenceIdeal.Hand.efR Cert.ReferenceIdeal.Hand.ffR32 Cert.ReferenceIdeal.Hand.ffR16 Cert.ReferenceIdeal.scatter_S100000_S3200000x1_S3200000_n_0_0_1 Cert.ReferenceIdeal.gather_S100000_S3200000x1_S3200000_n_0_n_n_0_1_1 Cert.ReferenceIdeal.gather_S100000x32_S3200000x1_S3200000x32_1_0_n_n_0_1_132 Cert.ReferenceIdeal.scatter_S100000x32_S3200000x1_S3200000x32_1_0_0_1 Cert.ReferenceIdeal.gather_S100000x16_S3200000x1_S3200000x16_1_0_n_n_0_1_116 Cert.ReferenceIdeal.scatter_S100000x16_S3200000x1_S3200000x16_1_0_0_1
      (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) = _
    rw [(hagree c).1, (hagree c).2.1, (hagree c).2.2.1, (hagree c).2.2.2.1, (hagree c).2.2.2.2.1, (hagree c).2.2.2.2.2,
      rec0_eq, rec1_eq, rec2_eq, rec3_eq, rec4_eq, rec5_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
